-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S4096x4096 : Shape := ⟨2, ![4096, 4096]⟩
abbrev S32x32 : Shape := ⟨2, ![32, 32]⟩
abbrev S32 : Shape := ⟨1, ![32]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4096x32 .f32) (main_arg1 : FVec F S4096x4096 .f32) (main_arg2 : FVec F S32x32 .f32) (main_arg3 : FVec F S32 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4096x32 : Shape := ⟨2, ![4096, 32]⟩
abbrev S4096x4096 : Shape := ⟨2, ![4096, 4096]⟩
abbrev S32x32 : Shape := ⟨2, ![32, 32]⟩
abbrev S32 : Shape := ⟨1, ![32]⟩
abbrev S1x32 : Shape := ⟨2, ![1, 32]⟩
abbrev S512x4096 : Shape := ⟨2, ![512, 4096]⟩
abbrev S512x32 : Shape := ⟨2, ![512, 32]⟩

abbrev nBuf : Space → Nat
  | .hbm => 7
  | .vmem => 12
  | .smem => 0
  | _ => 0

abbrev bufTy : (tb : Table) → Fin (tcTables nBuf tb) → BufTy
  | .hbm, ⟨0, _⟩ => ⟨S4096x32, .f32⟩
  | .hbm, ⟨1, _⟩ => ⟨S4096x4096, .f32⟩
  | .hbm, ⟨2, _⟩ => ⟨S32x32, .f32⟩
  | .hbm, ⟨3, _⟩ => ⟨S32, .f32⟩
  | .hbm, ⟨4, _⟩ => ⟨S1x32, .f32⟩
  | .hbm, ⟨5, _⟩ => ⟨S4096x32, .f32⟩
  | .hbm, ⟨6, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x32, .f32⟩
  | .local _ .vmem, ⟨3, _⟩ => ⟨S32x32, .f32⟩
  | .local _ .vmem, ⟨4, _⟩ => ⟨S1x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S512x32, .f32⟩
  | .local _ .vmem, ⟨9, _⟩ => ⟨S4096x32, .f32⟩
  | .local _ .vmem, ⟨10, _⟩ => ⟨S512x4096, .f32⟩
  | .local _ .vmem, ⟨11, _⟩ => ⟨S512x4096, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32_S1x32 : S32.ShapeCasts S1x32
  inb_S512x4096_S512x4096_0_0 : ∀ a, (![0, 0] : Fin 2 → Nat) a + S512x4096.size a ≤ S512x4096.size a
  h_S512x4096 : 0 < S512x4096.numel
  inb_S4096x32_S4096x32_0_0 : ∀ a, (![0, 0] : Fin 2 → Nat) a + S4096x32.size a ≤ S4096x32.size a
  h_S4096x32 : 0 < S4096x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S4096x32_S4096x32 : S4096x32.ShapeCasts S4096x32
  dot_S512x4096_S4096x32_S512x32_1_0_0_1_n_n_wf : DotDims.WF S512x4096 S4096x32 S512x32 [1] [0] [0] [1] [] []
  dot_S512x32_S32x32_S512x32_1_0_0_1_n_n_wf : DotDims.WF S512x32 S32x32 S512x32 [1] [0] [0] [1] [] []
  dot_S512x32_S4096x32_S512x4096_1_1_0_0_n_n_wf : DotDims.WF S512x32 S4096x32 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4096x32.size a
  hwx0_1 : ∀ i : grid0.Coords, EltTy.bits .f32 = 32 ∨ (Rect.block (s := S4096x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S4096x32.size a
  hwx0_4 : ∀ i : grid0.Coords, EltTy.bits .f32 = 32 ∨ (Rect.block (s := S4096x32) S512x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x32.size a ≤ S4096x32.size a
  hwx1_0 : ∀ i : grid1.Coords, EltTy.bits .f32 = 32 ∨ (Rect.block (s := S4096x32) S512x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S4096x32.size a
  hwx1_1 : ∀ i : grid1.Coords, EltTy.bits .f32 = 32 ∨ (Rect.block (s := S4096x32) S4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S4096x32_S512x4096_1_1_0_0_n_n : DotDims S512x32 S4096x32 S512x4096 where
  lhsContracting := [1]
  rhsContracting := [1]
  lhsNonContracting := [0]
  rhsNonContracting := [0]
  lhsBatch := []
  rhsBatch := []
  wf := dot_S512x32_S4096x32_S512x4096_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x32 : Shape := ⟨2, ![4096, 32]⟩
abbrev S4096x4096 : Shape := ⟨2, ![4096, 4096]⟩
abbrev S32x32 : Shape := ⟨2, ![32, 32]⟩
abbrev S32 : Shape := ⟨1, ![32]⟩
abbrev S_ : Shape := ⟨0, ![]⟩
abbrev S32x128 : Shape := ⟨2, ![32, 128]⟩
abbrev S1 : Shape := ⟨1, ![1]⟩
abbrev S128 : Shape := ⟨1, ![128]⟩
abbrev S4096x128 : Shape := ⟨2, ![4096, 128]⟩
abbrev S1x128 : Shape := ⟨2, ![1, 128]⟩
abbrev S512x2048 : Shape := ⟨2, ![512, 2048]⟩
abbrev S2048x128 : Shape := ⟨2, ![2048, 128]⟩
abbrev S512x128 : Shape := ⟨2, ![512, 128]⟩
abbrev S512x1024 : Shape := ⟨2, ![512, 1024]⟩
abbrev S1024x128 : Shape := ⟨2, ![1024, 128]⟩

abbrev nBuf : Space → Nat
  | .hbm => 18
  | .vmem => 13
  | .smem => 0
  | _ => 0

abbrev bufTy : (tb : Table) → Fin (tcTables nBuf tb) → BufTy
  | .hbm, ⟨0, _⟩ => ⟨S4096x32, .f32⟩
  | .hbm, ⟨1, _⟩ => ⟨S4096x4096, .f32⟩
  | .hbm, ⟨2, _⟩ => ⟨S32x32, .f32⟩
  | .hbm, ⟨3, _⟩ => ⟨S32, .f32⟩
  | .hbm, ⟨4, _⟩ => ⟨S_, .f32⟩
  | .hbm, ⟨5, _⟩ => ⟨S32x128, .f32⟩
  | .hbm, ⟨6, _⟩ => ⟨S_, .i32⟩
  | .hbm, ⟨7, _⟩ => ⟨S1, .i32⟩
  | .hbm, ⟨8, _⟩ => ⟨S32x128, .f32⟩
  | .hbm, ⟨9, _⟩ => ⟨S_, .f32⟩
  | .hbm, ⟨10, _⟩ => ⟨S128, .f32⟩
  | .hbm, ⟨11, _⟩ => ⟨S_, .i32⟩
  | .hbm, ⟨12, _⟩ => ⟨S1, .i32⟩
  | .hbm, ⟨13, _⟩ => ⟨S128, .f32⟩
  | .hbm, ⟨14, _⟩ => ⟨S4096x128, .f32⟩
  | .hbm, ⟨15, _⟩ => ⟨S1x128, .f32⟩
  | .hbm, ⟨16, _⟩ => ⟨S4096x128, .f32⟩
  | .hbm, ⟨17, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4096x128, .f32⟩
  | .local _ .vmem, ⟨11, _⟩ => ⟨S512x1024, .f32⟩
  | .local _ .vmem, ⟨12, _⟩ => ⟨S512x1024, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S32x128 : S_.BroadcastsInDim S32x128 (![] : Fin 0 → Fin S32x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S1024x128 : 0 < S1024x128.numel
  shapeCasts_S1024x128_S1024x128 : S1024x128.ShapeCasts S1024x128
  inb_S512x1024_S512x1024_0_0 : ∀ a, (![0, 0] : Fin 2 → Nat) a + S512x1024.size a ≤ S512x1024.size a
  h_S512x1024 : 0 < S512x1024.numel
  scatter_S32x128_S1_S32x32_01_n_1_0_wf : ScatterDims.WF S32x128 S1 S32x32 [0, 1] [] [1] 0
  scatter_S128_S1_S32_0_n_0_0_wf : ScatterDims.WF S128 S1 S32 [0] [] [0] 0
  dot_S4096x32_S32x128_S4096x128_1_0_0_1_n_n_wf : DotDims.WF S4096x32 S32x128 S4096x128 [1] [0] [0] [1] [] []
  dot_S512x2048_S2048x128_S512x128_1_0_0_1_n_n_wf : DotDims.WF S512x2048 S2048x128 S512x128 [1] [0] [0] [1] [] []
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x128.size a
  hwx0_1 : ∀ i : grid0.Coords, EltTy.bits .f32 = 32 ∨ (Rect.block (s := S4096x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1024x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)

variable [Facts₀]

def scatter_S32x128_S1_S32x32_01_n_1_0 : ScatterDims S32x128 S1 S32x32 where
  updateWindowDims := [0, 1]
  insertedWindowDims := []
  scatterDimsToOperandDims := [1]
  indexVectorDim := 0
  wf := scatter_S32x128_S1_S32x32_01_n_1_0_wf
def scatter_S128_S1_S32_0_n_0_0 : ScatterDims S128 S1 S32 where
  updateWindowDims := [0]
  insertedWindowDims := []
  scatterDimsToOperandDims := [0]
  indexVectorDim := 0
  wf := scatter_S128_S1_S32_0_n_0_0_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v8) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KbRegion0.lean ====
import proofs.«135639_g2000505199253694_pallasbulk_90_2_alg».proof.Proof.Gen.Kernel.Launch
import proofs.«135639_g2000505199253694_pallasbulk_90_2_alg».proof.Proof.Gen.Kernel.Skeleton
import proofs.«135639_g2000505199253694_pallasbulk_90_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the first pallas_call is entered
variable (V : (c : Dev nD) → (b : Ref sig .tc) → Buf (Elt F) ((c : Thread nD τ).loc b))

/-! # The first pallas_call (pipeline 0): h = max(0, (A · X) · W + bias), a 512-row strip of A per grid point -/

/-! ## The windows' blocks -/

/-- Window `w`'s block at grid point `t`, read off its array as the call finds it (`V`): for window 0 the
    512×4096 row strip `t` of A; for windows 1, 2, 3 the whole of X, W and the 1×32 bias. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every grid point, whether the point
    fetches it or not (an unfetched window's block index has not moved since the last fetch): for ANY proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev rA0 : Rect S512x4096 := Rect.unit (s := S512x4096) ![0, 0] S512x4096.size inb_S512x4096_S512x4096_0_0
abbrev rX0 : Rect S4096x32 := Rect.unit (s := S4096x32) ![0, 0] S4096x32.size inb_S4096x32_S4096x32_0_0
abbrev rW0 : Rect S32x32 := Rect.unit (s := S32x32) ![0, 0] S32x32.size inb_S32x32_S32x32_0_0
abbrev rB0 : Rect S1x32 := Rect.unit (s := S1x32) ![0, 0] S1x32.size inb_S1x32_S1x32_0_0
abbrev rH0 : Rect S512x32 := Rect.unit (s := S512x32) ![0, 0] S512x32.size inb_S512x32_S512x32_0_0

/-! ## What the body leaves in the output window's buffer -/

/-- The output window's staging buffer after the body, from the four input blocks: its one store, of the
    512×32 strip max(0, (A_t · X) · W + bias), over the whole buffer. -/
def out0_4 (x0 : Vec F S512x4096 .f32) (x1 : Vec F S4096x32 .f32) (x2 : Vec F S32x32 .f32) (x3 : Vec F S1x32 .f32) : Vec F S512x32 .f32 :=
  View.canon [⟨rH0, k0_pay1 (View.ld x0 rA0) (View.ld x1 rX0) (View.ld x2 rW0) (View.ld x3 rB0)⟩]

/-- The one store is the whole buffer, so it covers it. -/
theorem cover0_4 (p0 : Vec F S512x32 .f32) (y : S512x32.Idx) :
    ∃ pc ∈ ([⟨rH0, p0⟩] : List (View.Piece (Elt F) S512x32 .f32)), y ∈ pc.1.set :=
  View.cover_of_tiled [⟨rH0, p0⟩] S512x32.size (by rfl) y

/-! ## The body's triple -/

set_option maxHeartbeats 1000000 in
/-- The kernel body on whole staging memrefs, the four inputs' at contents `x0 … x3` and the output's at anything
    (the body reads it once and drops the value), runs to the continuation holding the inputs' as they were and the
    output's at `out0_4` of the inputs'. -/
theorem sound_kernel0 (c : Dev nD) (E : Set ℕ) (i : grid0.Coords)
    (arg0 : Memref sig .tc .vmem S512x4096 .f32) (harg0 : arg0.IsWhole) (arg1 : Memref sig .tc .vmem S4096x32 .f32) (harg1 : arg1.IsWhole)
    (arg2 : Memref sig .tc .vmem S32x32 .f32) (harg2 : arg2.IsWhole) (arg3 : Memref sig .tc .vmem S1x32 .f32) (harg3 : arg3.IsWhole)
    (arg4 : Memref sig .tc .vmem S512x32 .f32) (harg4 : arg4.IsWhole)
    (x0 : Vec F S512x4096 .f32) (x1 : Vec F S4096x32 .f32) (x2 : Vec F S32x32 .f32) (x3 : Vec F S1x32 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__h_kernel i arg0 harg0 arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the call finds them (`V`); after the body at point
    `t` each input's buffer still at its block and the output's at `out0_4` of the four input blocks; the invariant
    carries the scoped buffers outside the call and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's dues, and each window's current staging
    buffer whole at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbRegion1.lean ====
import proofs.«135639_g2000505199253694_pallasbulk_90_2_alg».proof.Proof.Gen.Kernel.Launch
import proofs.«135639_g2000505199253694_pallasbulk_90_2_alg».proof.Proof.Gen.Kernel.Skeleton
import proofs.«135639_g2000505199253694_pallasbulk_90_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the second pallas_call is entered
variable (V : (c : Dev nD) → (b : Ref sig .tc) → Buf (Elt F) ((c : Thread nD τ).loc b))

/-! # The second pallas_call (pipeline 1): G = h · hᵀ, a 512-row strip of h against the whole of h per grid point.
    Windows 0 (the strip) and 1 (the whole) read ONE array, h. -/

/-! ## The windows' blocks -/

/-- Window `w`'s block at grid point `t`, read off its array as the call finds it (`V`): for window 0 the
    512×32 row strip `t` of h; for window 1 the whole of h. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every grid point, whether the point
    fetches it or not: for ANY proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev rS1 : Rect S512x32 := Rect.unit (s := S512x32) ![0, 0] S512x32.size inb_S512x32_S512x32_0_0
abbrev rH1 : Rect S4096x32 := Rect.unit (s := S4096x32) ![0, 0] S4096x32.size inb_S4096x32_S4096x32_0_0
abbrev rG1 : Rect S512x4096 := Rect.unit (s := S512x4096) ![0, 0] S512x4096.size inb_S512x4096_S512x4096_0_0

/-! ## What the body leaves in the output window's buffer -/

/-- The output window's staging buffer after the body, from the two input blocks: its one store, of the
    512×4096 strip h_t · hᵀ, over the whole buffer. -/
def out1_2 (x0 : Vec F S512x32 .f32) (x1 : Vec F S4096x32 .f32) : Vec F S512x4096 .f32 :=
  View.canon [⟨rG1, k1_pay1 (View.ld x0 rS1) (View.ld x1 rH1)⟩]

/-- The one store is the whole buffer, so it covers it. -/
theorem cover1_2 (p0 : Vec F S512x4096 .f32) (y : S512x4096.Idx) :
    ∃ pc ∈ ([⟨rG1, p0⟩] : List (View.Piece (Elt F) S512x4096 .f32)), y ∈ pc.1.set :=
  View.cover_of_tiled [⟨rG1, p0⟩] S512x4096.size (by rfl) y

/-! ## The body's triple -/

set_option maxHeartbeats 1000000 in
/-- The kernel body on whole staging memrefs, the two inputs' at contents `x0`, `x1` and the output's at anything
    (the body reads it once and drops the value), runs to the continuation holding the inputs' as they were and the
    output's at `out1_2` of the inputs'. -/
theorem sound_kernel1 (c : Dev nD) (E : Set ℕ) (i : grid1.Coords)
    (arg0 : Memref sig .tc .vmem S512x32 .f32) (harg0 : arg0.IsWhole) (arg1 : Memref sig .tc .vmem S4096x32 .f32) (harg1 : arg1.IsWhole)
    (arg2 : Memref sig .tc .vmem S512x4096 .f32) (harg2 : arg2.IsWhole)
    (x0 : Vec F S512x32 .f32) (x1 : Vec F S4096x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__gram_kernel i arg0 harg0 arg1 harg1 arg2 harg2) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the call finds them (`V`); after the body at point
    `t` each input's buffer still at its block and the output's at `out1_2` of the two input blocks; the invariant
    carries the scoped buffers outside the call and the generator register, untouched; nothing owed. The two input
    windows read one array, h: window 0 holds the left half of its full share, window 1 the right half; the
    output's array is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's dues, and each window's current staging
    buffer whole at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbRun.lean ====
import proofs.«135639_g2000505199253694_pallasbulk_90_2_alg».proof.Proof.Gen.Kernel.Launch
import proofs.«135639_g2000505199253694_pallasbulk_90_2_alg».proof.Proof.Gen.Kernel.Skeleton
import proofs.«135639_g2000505199253694_pallasbulk_90_2_alg».proof.Proof.Gen.Kernel.Points
import proofs.«135639_g2000505199253694_pallasbulk_90_2_alg».proof.Proof.KbRegion0
import proofs.«135639_g2000505199253694_pallasbulk_90_2_alg».proof.Proof.KbRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared
-- the core's buffer contents when the second pallas_call is entered
variable (V : (c : Dev nD) → (b : Ref sig .tc) → Buf (Elt F) ((c : Thread nD τ).loc b))

/-! # The second pallas_call's arrays among the core's unscoped buffers: h is read through two windows -/

/-- The distinct buffers behind pipeline 1's arrays are h and G. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v1) ↦{fullShare} Vc main_v1) ∗ (((c : Thread nD τ).loc main_v2) ↦{fullShare} Vc main_v2)) := by
  unfold Pipeline.arrBufs
  exact bigSep_eq_bigSepL_of_eq [main_v1, main_v2] (by decide) (by decide) _

/-- Pipeline 1's arrays as its proof data hold them: h at the left half share for window 0 and at the right half
    for window 1, G outright. -/
theorem arrays1_eq (c : Dev nD) (Fw : (w : Fin cfg1.W) → Buf (Elt F) ((cfg1.win w).arr.view.loc (c : Thread nD τ))) :
    (dat1 V c).arrays Fw
      = iprop((((c : Thread nD τ).loc main_v1) ↦{fullShare.left} Fw 0) ∗ (((c : Thread nD τ).loc main_v1) ↦{fullShare.right} Fw 1)
          ∗ (((c : Thread nD τ).loc main_v2) ↦{fullShare} Fw 2)) := by
  unfold Dat.arrays
  rw [bigSep_W1, (arr_whole1 0).set_eq_univ, (arr_whole1 2).set_eq_univ]
  rfl

/-- The core's unscoped buffers are the buffers behind pipeline 1's arrays and the rest. -/
theorem unscopedBufs_split1 (c : Dev nD) (Vc : (b : Ref sig .tc) → Buf (Elt F) ((c : Thread nD τ).loc b)) :
    (unscopedBufs c Vc : sProp 𝕄)
      = iprop((Pipeline.arrBufs (Ix := Unit) (Name := ℕ) (U := UR sig nD τ) (Lvl := ℕ) spec1 c Vc : sProp 𝕄)
          ∗ Pipeline.unscopedRest (Ix := Unit) (Name := ℕ) (U := UR sig nD τ) (Lvl := ℕ) spec1 c Vc) :=
  Pipeline.unscopedBufs_split₀ (Ix := Unit) (Name := ℕ) (U := UR sig nD τ) (Lvl := ℕ) cfgs 1 winFacts₀1.arr_unscoped c Vc

/-- ENTRY: the core's unscoped buffers at `V` are pipeline 1's arrays at the proof data's entry contents — h's
    full share halved between the two windows that read it — and the unscoped rest. -/
theorem arrays_of_unscopedBufs1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [unscopedBufs_split1, arrBufs1_eq, arrays1_eq]
  iintro ⟨⟨H1, H2⟩, Hrest⟩
  ihave H1 := (pointsTo_share (PosShare.mem_left_op_right fullShare)).1 $$ H1
  icases H1 with ⟨H1l, H1r⟩
  isplitr [Hrest]
  · isplitl [H1l]; · iexact H1l
    isplitl [H1r]; · iexact H1r
    iexact H2
  iexact Hrest

/-- EXIT: pipeline 1's arrays at their final contents and the unscoped rest at `V` are the core's unscoped buffers at
    any valuation `V'` that has h as entered (an input array is never written, so both halves still hold the entry
    contents and join), G at what the write-backs leave, and agrees with `V` elsewhere. -/
theorem unscopedBufs_of_arrays1 (c : Dev nD) (V' : (b : Ref sig .tc) → Buf (Elt F) ((c : Thread nD τ).loc b))
    (h1 : V' main_v1 = V c main_v1) (h2 : V' main_v2 = (dat1 V c).arrAt 2 cfg1.N)
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [unscopedBufs_split1, arrBufs1_eq, arrays1_eq, h1, h2,
    show (dat1 V c).arrAt 0 cfg1.N = V c main_v1 from ((dat1 V c).arrAt_in 0 rfl _).trans (A_eq1 V c 0),
    show (dat1 V c).arrAt 1 cfg1.N = V c main_v1 from ((dat1 V c).arrAt_in 1 rfl _).trans (A_eq1 V c 1)]
  iintro ⟨⟨H1l, H1r, H2⟩, Hrest⟩
  isplitr [Hrest]
  · isplitl [H1l H1r]
    · iapply (pointsTo_share (PosShare.mem_left_op_right fullShare)).2
      isplitl [H1l]; · iexact H1l
      iexact H1r
    iexact H2
  iapply (Entails.of_eq (show Pipeline.unscopedRest (Ix := Unit) (Name := ℕ) (U := UR sig nD τ) (Lvl := ℕ) spec1 c (V c)
      = (Pipeline.unscopedRest (Ix := Unit) (Name := ℕ) (U := UR sig nD τ) (Lvl := ℕ) spec1 c V' : sProp 𝕄) from by
    unfold Pipeline.unscopedRest
    exact bigSep_congr fun b hb => by rw [hrest b (Finset.mem_sdiff.mp hb).2]))
  iexact Hrest

end Shared

variable (m : (ℓ : Loc nD τ sig) → Buf (Elt F) ℓ) (ρ : Dev nD → PrngReg)

/-! # THE RUN of @main: bias reshaped to 1×32 on the host, then the two pallas_calls

## The buffer contents at each boundary -/

/-- Core `c`'s buffers at launch. -/
abbrev W0 : Dev nD → Valuation τ sig (Elt F) := fun c b => (s₀ m ρ).mem ((c : Dev nD), b)
/-- After the host reshape of the bias (the first call's entry). -/
abbrev W1 : Dev nD → Valuation τ sig (Elt F) := fun c => StableHlo.after hostOps0 (W0 m ρ c)
theorem W1_eq (c : Dev nD) : W1 m ρ c = StableHlo.after hostOps0 (W0 m ρ c) := rfl
/-- The same read at the TensorCore's references. -/
abbrev V1 : (c : Dev nD) → (b : Ref sig .tc) → Buf (Elt F) ((c : Thread nD τ).loc b) := fun c b => W1 m ρ c b
/-- At the first call's exit: its input arrays as entered, h at what the eight write-backs leave, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- h after the first call is what its write-backs leave. -/
theorem W2_main_v1 (c : Dev nD) : W2 m ρ c (Proc.devRef .tc main_v1) = (dat0 (V1 m ρ) c).arrAt 4 cfg0.N :=
  W2_arr m ρ c 4
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- No host operation separates the two calls: the second is entered from the first's exit contents. -/
abbrev W3 : Dev nD → Valuation τ sig (Elt F) := W2 m ρ
abbrev V3 : (c : Dev nD) → (b : Ref sig .tc) → Buf (Elt F) ((c : Thread nD τ).loc b) := fun c b => W3 m ρ c b
/-- The second call reads the h the first one wrote. -/
theorem V3_main_v1 (c : Dev nD) : V3 m ρ c main_v1 = W2 m ρ c (Proc.devRef .tc main_v1) := rfl
/-- At the second call's exit: G at what the eight write-backs leave, every other buffer (h included: the call
    only reads it) as entered. -/
def W4 (c : Dev nD) : Valuation τ sig (Elt F) :=
  Function.update (W3 m ρ c) (Proc.devRef .tc main_v2) ((dat1 (V3 m ρ) c).arrAt 2 cfg1.N)
theorem W4_main_v2 (c : Dev nD) : W4 m ρ c (Proc.devRef .tc main_v2) = (dat1 (V3 m ρ) c).arrAt 2 cfg1.N := by
  unfold W4; exact Function.update_self ..
theorem W4_of_ne (c : Dev nD) (b : Ref sig .tc) (hb : b ≠ main_v2) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ### The arguments end as launched: the host reshape writes the 1×32 bias copy only, the first call writes h
    only, the second G only -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg0 (c : Dev nD) : V1 m ρ c main_arg0 = m ((c : Thread nD τ).loc main_arg0) := W1_main_arg0 m ρ c
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := W1_main_arg0 m ρ c

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg1 (c : Dev nD) : V1 m ρ c main_arg1 = m ((c : Thread nD τ).loc main_arg1) := W1_main_arg1 m ρ c
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_main_arg1 m ρ c

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg2 (c : Dev nD) : V1 m ρ c main_arg2 = m ((c : Thread nD τ).loc main_arg2) := W1_main_arg2 m ρ c
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := W1_main_arg2 m ρ c

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W1 m ρ c (Proc.devRef .tc main_arg3) := W2_of_ne m ρ c main_arg3 (by decide)
    _ = m ((c : Thread nD τ).loc main_arg3) := W1_main_arg3 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The FIRST CALL over the thread state: entered from every unscoped buffer at `W1`, left at `W2`. Its five
    arrays are distinct buffers, split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND CALL over the thread state: entered from every unscoped buffer at `W3` (= `W2`), left at `W4`. Two of
    its windows read h: at entry h's full share is halved between them, at exit the halves — both still at the
    entry contents — are joined back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_unscopedBufs1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V3 m ρ) c (V4 m ρ c)
      (W4_of_ne m ρ c main_v1 (by decide)) (W4_main_v2 m ρ c)
      (fun b hb => W4_of_ne m ρ c b fun e => hb (e ▸ (by decide : main_v2 ∈ Finset.univ.image (Pipeline.arrRef spec1))))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order: the host reshape, then a segment per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final memory holds each unscoped buffer at the last boundary's contents `W4` — whence any
    post `Q` that follows from that. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN, every unscoped buffer's final contents named. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  run_post m ρ fun s h => h

/-- THE FRAME: every final memory has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.Kernel.Hand

end
-- ==== Proof.KiRegion0.lean ====
import proofs.«135639_g2000505199253694_pallasbulk_90_2_alg».proof.Proof.Gen.KernelIdeal.Launch
import proofs.«135639_g2000505199253694_pallasbulk_90_2_alg».proof.Proof.Gen.KernelIdeal.Skeleton
import proofs.«135639_g2000505199253694_pallasbulk_90_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the first pallas_call is entered
variable (V : (c : Dev nD) → (b : Ref sig .tc) → Buf (Elt F) ((c : Thread nD τ).loc b))

/-! # The first pallas_call (pipeline 0): h = max(0, (A · X) · W + bias), a 512-row strip of A per grid point -/

/-! ## The windows' blocks -/

/-- Window `w`'s block at grid point `t`, read off its array as the call finds it (`V`): for window 0 the
    512×4096 row strip `t` of A; for windows 1, 2, 3 the whole of X, W and the 1×32 bias. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every grid point, whether the point
    fetches it or not (an unfetched window's block index has not moved since the last fetch): for ANY proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev rA0 : Rect S512x4096 := Rect.unit (s := S512x4096) ![0, 0] S512x4096.size inb_S512x4096_S512x4096_0_0
abbrev rX0 : Rect S4096x32 := Rect.unit (s := S4096x32) ![0, 0] S4096x32.size inb_S4096x32_S4096x32_0_0
abbrev rW0 : Rect S32x32 := Rect.unit (s := S32x32) ![0, 0] S32x32.size inb_S32x32_S32x32_0_0
abbrev rB0 : Rect S1x32 := Rect.unit (s := S1x32) ![0, 0] S1x32.size inb_S1x32_S1x32_0_0
abbrev rH0 : Rect S512x32 := Rect.unit (s := S512x32) ![0, 0] S512x32.size inb_S512x32_S512x32_0_0

/-! ## What the body leaves in the output window's buffer -/

/-- The output window's staging buffer after the body, from the four input blocks: its one store, of the
    512×32 strip max(0, (A_t · X) · W + bias), over the whole buffer. -/
def out0_4 (x0 : Vec F S512x4096 .f32) (x1 : Vec F S4096x32 .f32) (x2 : Vec F S32x32 .f32) (x3 : Vec F S1x32 .f32) : Vec F S512x32 .f32 :=
  View.canon [⟨rH0, k0_pay1 (View.ld x0 rA0) (View.ld x1 rX0) (View.ld x2 rW0) (View.ld x3 rB0)⟩]

/-- The one store is the whole buffer, so it covers it. -/
theorem cover0_4 (p0 : Vec F S512x32 .f32) (y : S512x32.Idx) :
    ∃ pc ∈ ([⟨rH0, p0⟩] : List (View.Piece (Elt F) S512x32 .f32)), y ∈ pc.1.set :=
  View.cover_of_tiled [⟨rH0, p0⟩] S512x32.size (by rfl) y

/-! ## The body's triple -/

set_option maxHeartbeats 1000000 in
/-- The kernel body on whole staging memrefs, the four inputs' at contents `x0 … x3` and the output's at anything
    (the body reads it once and drops the value), runs to the continuation holding the inputs' as they were and the
    output's at `out0_4` of the inputs'. -/
theorem sound_kernel0 (c : Dev nD) (E : Set ℕ) (i : grid0.Coords)
    (arg0 : Memref sig .tc .vmem S512x4096 .f32) (harg0 : arg0.IsWhole) (arg1 : Memref sig .tc .vmem S4096x32 .f32) (harg1 : arg1.IsWhole)
    (arg2 : Memref sig .tc .vmem S32x32 .f32) (harg2 : arg2.IsWhole) (arg3 : Memref sig .tc .vmem S1x32 .f32) (harg3 : arg3.IsWhole)
    (arg4 : Memref sig .tc .vmem S512x32 .f32) (harg4 : arg4.IsWhole)
    (x0 : Vec F S512x4096 .f32) (x1 : Vec F S4096x32 .f32) (x2 : Vec F S32x32 .f32) (x3 : Vec F S1x32 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__h_kernel i arg0 harg0 arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the call finds them (`V`); after the body at point
    `t` each input's buffer still at its block and the output's at `out0_4` of the four input blocks; the invariant
    carries the scoped buffers outside the call and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's dues, and each window's current staging
    buffer whole at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
import proofs.«135639_g2000505199253694_pallasbulk_90_2_alg».proof.Proof.Gen.KernelIdeal.Launch
import proofs.«135639_g2000505199253694_pallasbulk_90_2_alg».proof.Proof.Gen.KernelIdeal.Skeleton
import proofs.«135639_g2000505199253694_pallasbulk_90_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the second pallas_call is entered
variable (V : (c : Dev nD) → (b : Ref sig .tc) → Buf (Elt F) ((c : Thread nD τ).loc b))

/-! # The second pallas_call (pipeline 1): G = h · hᵀ, a 512-row strip of h against the whole of h per grid point.
    Windows 0 (the strip) and 1 (the whole) read ONE array, h. -/

/-! ## The windows' blocks -/

/-- Window `w`'s block at grid point `t`, read off its array as the call finds it (`V`): for window 0 the
    512×32 row strip `t` of h; for window 1 the whole of h. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every grid point, whether the point
    fetches it or not: for ANY proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev rS1 : Rect S512x32 := Rect.unit (s := S512x32) ![0, 0] S512x32.size inb_S512x32_S512x32_0_0
abbrev rH1 : Rect S4096x32 := Rect.unit (s := S4096x32) ![0, 0] S4096x32.size inb_S4096x32_S4096x32_0_0
abbrev rG1 : Rect S512x4096 := Rect.unit (s := S512x4096) ![0, 0] S512x4096.size inb_S512x4096_S512x4096_0_0

/-! ## What the body leaves in the output window's buffer -/

/-- The output window's staging buffer after the body, from the two input blocks: its one store, of the
    512×4096 strip h_t · hᵀ, over the whole buffer. -/
def out1_2 (x0 : Vec F S512x32 .f32) (x1 : Vec F S4096x32 .f32) : Vec F S512x4096 .f32 :=
  View.canon [⟨rG1, k1_pay1 (View.ld x0 rS1) (View.ld x1 rH1)⟩]

/-- The one store is the whole buffer, so it covers it. -/
theorem cover1_2 (p0 : Vec F S512x4096 .f32) (y : S512x4096.Idx) :
    ∃ pc ∈ ([⟨rG1, p0⟩] : List (View.Piece (Elt F) S512x4096 .f32)), y ∈ pc.1.set :=
  View.cover_of_tiled [⟨rG1, p0⟩] S512x4096.size (by rfl) y

/-! ## The body's triple -/

set_option maxHeartbeats 1000000 in
/-- The kernel body on whole staging memrefs, the two inputs' at contents `x0`, `x1` and the output's at anything
    (the body reads it once and drops the value), runs to the continuation holding the inputs' as they were and the
    output's at `out1_2` of the inputs'. -/
theorem sound_kernel1 (c : Dev nD) (E : Set ℕ) (i : grid1.Coords)
    (arg0 : Memref sig .tc .vmem S512x32 .f32) (harg0 : arg0.IsWhole) (arg1 : Memref sig .tc .vmem S4096x32 .f32) (harg1 : arg1.IsWhole)
    (arg2 : Memref sig .tc .vmem S512x4096 .f32) (harg2 : arg2.IsWhole)
    (x0 : Vec F S512x32 .f32) (x1 : Vec F S4096x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__gram_kernel i arg0 harg0 arg1 harg1 arg2 harg2) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the call finds them (`V`); after the body at point
    `t` each input's buffer still at its block and the output's at `out1_2` of the two input blocks; the invariant
    carries the scoped buffers outside the call and the generator register, untouched; nothing owed. The two input
    windows read one array, h: window 0 holds the left half of its full share, window 1 the right half; the
    output's array is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's dues, and each window's current staging
    buffer whole at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
import proofs.«135639_g2000505199253694_pallasbulk_90_2_alg».proof.Proof.Gen.KernelIdeal.Launch
import proofs.«135639_g2000505199253694_pallasbulk_90_2_alg».proof.Proof.Gen.KernelIdeal.Skeleton
import proofs.«135639_g2000505199253694_pallasbulk_90_2_alg».proof.Proof.Gen.KernelIdeal.Points
import proofs.«135639_g2000505199253694_pallasbulk_90_2_alg».proof.Proof.KiRegion0
import proofs.«135639_g2000505199253694_pallasbulk_90_2_alg».proof.Proof.KiRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared
-- the core's buffer contents when the second pallas_call is entered
variable (V : (c : Dev nD) → (b : Ref sig .tc) → Buf (Elt F) ((c : Thread nD τ).loc b))

/-! # The second pallas_call's arrays among the core's unscoped buffers: h is read through two windows -/

/-- The distinct buffers behind pipeline 1's arrays are h and G. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v1) ↦{fullShare} Vc main_v1) ∗ (((c : Thread nD τ).loc main_v2) ↦{fullShare} Vc main_v2)) := by
  unfold Pipeline.arrBufs
  exact bigSep_eq_bigSepL_of_eq [main_v1, main_v2] (by decide) (by decide) _

/-- Pipeline 1's arrays as its proof data hold them: h at the left half share for window 0 and at the right half
    for window 1, G outright. -/
theorem arrays1_eq (c : Dev nD) (Fw : (w : Fin cfg1.W) → Buf (Elt F) ((cfg1.win w).arr.view.loc (c : Thread nD τ))) :
    (dat1 V c).arrays Fw
      = iprop((((c : Thread nD τ).loc main_v1) ↦{fullShare.left} Fw 0) ∗ (((c : Thread nD τ).loc main_v1) ↦{fullShare.right} Fw 1)
          ∗ (((c : Thread nD τ).loc main_v2) ↦{fullShare} Fw 2)) := by
  unfold Dat.arrays
  rw [bigSep_W1, (arr_whole1 0).set_eq_univ, (arr_whole1 2).set_eq_univ]
  rfl

/-- The core's unscoped buffers are the buffers behind pipeline 1's arrays and the rest. -/
theorem unscopedBufs_split1 (c : Dev nD) (Vc : (b : Ref sig .tc) → Buf (Elt F) ((c : Thread nD τ).loc b)) :
    (unscopedBufs c Vc : sProp 𝕄)
      = iprop((Pipeline.arrBufs (Ix := Unit) (Name := ℕ) (U := UR sig nD τ) (Lvl := ℕ) spec1 c Vc : sProp 𝕄)
          ∗ Pipeline.unscopedRest (Ix := Unit) (Name := ℕ) (U := UR sig nD τ) (Lvl := ℕ) spec1 c Vc) :=
  Pipeline.unscopedBufs_split₀ (Ix := Unit) (Name := ℕ) (U := UR sig nD τ) (Lvl := ℕ) cfgs 1 winFacts₀1.arr_unscoped c Vc

/-- ENTRY: the core's unscoped buffers at `V` are pipeline 1's arrays at the proof data's entry contents — h's
    full share halved between the two windows that read it — and the unscoped rest. -/
theorem arrays_of_unscopedBufs1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [unscopedBufs_split1, arrBufs1_eq, arrays1_eq]
  iintro ⟨⟨H1, H2⟩, Hrest⟩
  ihave H1 := (pointsTo_share (PosShare.mem_left_op_right fullShare)).1 $$ H1
  icases H1 with ⟨H1l, H1r⟩
  isplitr [Hrest]
  · isplitl [H1l]; · iexact H1l
    isplitl [H1r]; · iexact H1r
    iexact H2
  iexact Hrest

/-- EXIT: pipeline 1's arrays at their final contents and the unscoped rest at `V` are the core's unscoped buffers at
    any valuation `V'` that has h as entered (an input array is never written, so both halves still hold the entry
    contents and join), G at what the write-backs leave, and agrees with `V` elsewhere. -/
theorem unscopedBufs_of_arrays1 (c : Dev nD) (V' : (b : Ref sig .tc) → Buf (Elt F) ((c : Thread nD τ).loc b))
    (h1 : V' main_v1 = V c main_v1) (h2 : V' main_v2 = (dat1 V c).arrAt 2 cfg1.N)
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [unscopedBufs_split1, arrBufs1_eq, arrays1_eq, h1, h2,
    show (dat1 V c).arrAt 0 cfg1.N = V c main_v1 from ((dat1 V c).arrAt_in 0 rfl _).trans (A_eq1 V c 0),
    show (dat1 V c).arrAt 1 cfg1.N = V c main_v1 from ((dat1 V c).arrAt_in 1 rfl _).trans (A_eq1 V c 1)]
  iintro ⟨⟨H1l, H1r, H2⟩, Hrest⟩
  isplitr [Hrest]
  · isplitl [H1l H1r]
    · iapply (pointsTo_share (PosShare.mem_left_op_right fullShare)).2
      isplitl [H1l]; · iexact H1l
      iexact H1r
    iexact H2
  iapply (Entails.of_eq (show Pipeline.unscopedRest (Ix := Unit) (Name := ℕ) (U := UR sig nD τ) (Lvl := ℕ) spec1 c (V c)
      = (Pipeline.unscopedRest (Ix := Unit) (Name := ℕ) (U := UR sig nD τ) (Lvl := ℕ) spec1 c V' : sProp 𝕄) from by
    unfold Pipeline.unscopedRest
    exact bigSep_congr fun b hb => by rw [hrest b (Finset.mem_sdiff.mp hb).2]))
  iexact Hrest

end Shared

variable (m : (ℓ : Loc nD τ sig) → Buf (Elt F) ℓ) (ρ : Dev nD → PrngReg)

/-! # THE RUN of @main: bias reshaped to 1×32 on the host, then the two pallas_calls

## The buffer contents at each boundary -/

/-- Core `c`'s buffers at launch. -/
abbrev W0 : Dev nD → Valuation τ sig (Elt F) := fun c b => (s₀ m ρ).mem ((c : Dev nD), b)
/-- After the host reshape of the bias (the first call's entry). -/
abbrev W1 : Dev nD → Valuation τ sig (Elt F) := fun c => StableHlo.after hostOps0 (W0 m ρ c)
theorem W1_eq (c : Dev nD) : W1 m ρ c = StableHlo.after hostOps0 (W0 m ρ c) := rfl
/-- The same read at the TensorCore's references. -/
abbrev V1 : (c : Dev nD) → (b : Ref sig .tc) → Buf (Elt F) ((c : Thread nD τ).loc b) := fun c b => W1 m ρ c b
/-- At the first call's exit: its input arrays as entered, h at what the eight write-backs leave, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- h after the first call is what its write-backs leave. -/
theorem W2_main_v1 (c : Dev nD) : W2 m ρ c (Proc.devRef .tc main_v1) = (dat0 (V1 m ρ) c).arrAt 4 cfg0.N :=
  W2_arr m ρ c 4
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- No host operation separates the two calls: the second is entered from the first's exit contents. -/
abbrev W3 : Dev nD → Valuation τ sig (Elt F) := W2 m ρ
abbrev V3 : (c : Dev nD) → (b : Ref sig .tc) → Buf (Elt F) ((c : Thread nD τ).loc b) := fun c b => W3 m ρ c b
/-- The second call reads the h the first one wrote. -/
theorem V3_main_v1 (c : Dev nD) : V3 m ρ c main_v1 = W2 m ρ c (Proc.devRef .tc main_v1) := rfl
/-- At the second call's exit: G at what the eight write-backs leave, every other buffer (h included: the call
    only reads it) as entered. -/
def W4 (c : Dev nD) : Valuation τ sig (Elt F) :=
  Function.update (W3 m ρ c) (Proc.devRef .tc main_v2) ((dat1 (V3 m ρ) c).arrAt 2 cfg1.N)
theorem W4_main_v2 (c : Dev nD) : W4 m ρ c (Proc.devRef .tc main_v2) = (dat1 (V3 m ρ) c).arrAt 2 cfg1.N := by
  unfold W4; exact Function.update_self ..
theorem W4_of_ne (c : Dev nD) (b : Ref sig .tc) (hb : b ≠ main_v2) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ### The arguments end as launched: the host reshape writes the 1×32 bias copy only, the first call writes h
    only, the second G only -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg0 (c : Dev nD) : V1 m ρ c main_arg0 = m ((c : Thread nD τ).loc main_arg0) := W1_main_arg0 m ρ c
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := W1_main_arg0 m ρ c

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg1 (c : Dev nD) : V1 m ρ c main_arg1 = m ((c : Thread nD τ).loc main_arg1) := W1_main_arg1 m ρ c
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := W1_main_arg1 m ρ c

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg2 (c : Dev nD) : V1 m ρ c main_arg2 = m ((c : Thread nD τ).loc main_arg2) := W1_main_arg2 m ρ c
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := W1_main_arg2 m ρ c

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W1 m ρ c (Proc.devRef .tc main_arg3) := W2_of_ne m ρ c main_arg3 (by decide)
    _ = m ((c : Thread nD τ).loc main_arg3) := W1_main_arg3 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The FIRST CALL over the thread state: entered from every unscoped buffer at `W1`, left at `W2`. Its five
    arrays are distinct buffers, split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND CALL over the thread state: entered from every unscoped buffer at `W3` (= `W2`), left at `W4`. Two of
    its windows read h: at entry h's full share is halved between them, at exit the halves — both still at the
    entry contents — are joined back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_unscopedBufs1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V3 m ρ) c (V4 m ρ c)
      (W4_of_ne m ρ c main_v1 (by decide)) (W4_main_v2 m ρ c)
      (fun b hb => W4_of_ne m ρ c b fun e => hb (e ▸ (by decide : main_v2 ∈ Finset.univ.image (Pipeline.arrRef spec1))))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order: the host reshape, then a segment per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final memory holds each unscoped buffer at the last boundary's contents `W4` — whence any
    post `Q` that follows from that. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN, every unscoped buffer's final contents named. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  run_post m ρ fun s h => h

/-- THE FRAME: every final memory has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.Hand

end
-- ==== Proof.LibPlainDot.lean ====
/-
  A plain matrix product at the ideal values, read at an index.

  For the dimension numbers `DotDims.plain M K N` (rows × contraction times contraction × columns, no batch
  axis) the element (r, c) of the product is `∑ k : Fin K, l (r, k) * r (k, c)` on the extended reals, both
  for the host's `dot_general` and for a `tpu.matmul` into the zero accumulator: no rounding, no order of
  summation and no tiling is left in either.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index is the sum over `k : Fin K` of row entry times column entry. -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col _ _)
  exact congrArg₂ (· * ·) (congrArg l el) (congrArg r er)

/-- The host's `dot_general` of plain dimension numbers, at an index. -/
theorem hostDot_apply (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) := by
  simp only [Host.dotGeneral]
  rw [Ideal.dotGeneral_apply]
  exact sum_contr l r j

/-- A `tpu.matmul` of plain dimension numbers into the zero accumulator, at an index. -/
theorem matmulZero_apply (l : FVec Ideal ⟨2, ![M, K]⟩ φ₁) (r : FVec Ideal ⟨2, ![K, N]⟩ φ₂)
    (j : (⟨2, ![M, N]⟩ : Shape).Idx) :
    matmul (F := Ideal) (DotDims.plain M K N) none l r (constant ⟨2, ![M, N]⟩ .f32 0x00000000#32) j
      = ∑ k : Fin K, l (ix2 (j 0) k) * r (ix2 k (j 1)) := by
  simp only [matmul]
  rw [Ideal.matmul_constant_zero_apply]
  exact sum_contr l r j

end Idealize.ShloMosaic.PlainDot

end
-- ==== Proof.Spec.lean ====
/-
  The mathematics of the two programs, with no program in sight.

  Both compute the Gram matrix  out (r, c) = ∑ j, h (r, j) * h (c, j)  of a hidden layer
  h = max (A · x · W + b, 0)  on the extended reals, A a 4096 × 4096 matrix, x 4096 × 32, W 32 × 32, b a row of 32.
  One side groups the triple product as (A · x) · W and keeps 32 hidden columns. The other pads W and b with zero
  columns up to 128, groups the product as A · (x · W), sums the long axis in two halves of 2048 from a zero start,
  and takes the Gram matrix over all 128 columns. On FINITE entries the two groupings agree (a finite double sum may
  be summed in either order and a real factor moves across a finite sum), a padded column of the hidden layer is
  max (0 + 0, 0) = 0, and a zero column adds 0 * 0 to the Gram sum.
-/
import Idealize.ShloMosaic.PureOps.Ideal

noncomputable section

namespace Cert.Proof.Spec

open scoped BigOperators

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The lower half of the long axis, -/
def lo (n : Fin 2048) : Fin 4096 := ⟨n.val, by have := n.isLt; omega⟩
/-- and its upper half. -/
def hi (n : Fin 2048) : Fin 4096 := ⟨2048 + n.val, by have := n.isLt; omega⟩

/-- A sum over the long axis is the sum over its lower half plus the sum over its upper half. -/
theorem sum_halves {M : Type} [AddCommMonoid M] (f : Fin 4096 → M) :
    ∑ n : Fin 4096, f n = (∑ n : Fin 2048, f (lo n)) + ∑ n : Fin 2048, f (hi n) :=
  Fin.sum_univ_add (a := 2048) (b := 2048) f

section

variable (A : Fin 4096 → Fin 4096 → EReal) (x : Fin 4096 → Fin 32 → EReal) (W : Fin 32 → Fin 32 → EReal) (b : Fin 32 → EReal)

/-- The hidden layer with the product grouped as (A · x) · W. -/
def hidK (r : Fin 4096) (j : Fin 32) : EReal :=
  max ((∑ k : Fin 32, (∑ n : Fin 4096, A r n * x n k) * W k j) + b j) 0

/-- Its Gram matrix over the 32 hidden columns. -/
def gramK (r c : Fin 4096) : EReal := ∑ j : Fin 32, hidK A x W b r j * hidK A x W b c j

/-- W with zero columns appended up to 128, -/
def padW (k : Fin 32) (j : Fin 128) : EReal := if h : j.val < 32 then W k ⟨j.val, h⟩ else 0
/-- b with zeros appended up to 128. -/
def padB (j : Fin 128) : EReal := if h : j.val < 32 then b ⟨j.val, h⟩ else 0

/-- x · (padded W). -/
def support (n : Fin 4096) (j : Fin 128) : EReal := ∑ k : Fin 32, x n k * padW W k j

/-- The hidden layer with the product grouped as A · (x · W), the long axis summed in two halves. -/
def hidR (r : Fin 4096) (j : Fin 128) : EReal :=
  max (((∑ n : Fin 2048, A r (lo n) * support x W (lo n) j) + ∑ n : Fin 2048, A r (hi n) * support x W (hi n) j)
    + padB b j) 0

/-- Its Gram matrix over all 128 columns. -/
def gramR (r c : Fin 4096) : EReal := ∑ j : Fin 128, hidR A x W b r j * hidR A x W b c j

/-- A padded column of the hidden layer is zero: every product with a zero entry of the padded W is zero. -/
theorem hidR_pad (r : Fin 4096) (j : Fin 128) (h : ¬ j.val < 32) : hidR A x W b r j = 0 := by
  have hs : ∀ n, support x W n j = 0 := fun n => by
    unfold support padW; simp only [dif_neg h, mul_zero, Finset.sum_const_zero]
  unfold hidR padB
  rw [dif_neg h]
  simp [hs]

end

/-- On real entries the two groupings of a triple product agree: a finite double sum of reals may be summed in
    either order, and a real factor moves across a finite sum. -/
theorem regroup {ι κ : Type} [Fintype ι] [Fintype κ] (a : ι → ℝ) (y : ι → κ → ℝ) (w : κ → ℝ) :
    (∑ n : ι, (a n : EReal) * ∑ k : κ, (y n k : EReal) * (w k : EReal))
      = ∑ k : κ, (∑ n : ι, (a n : EReal) * (y n k : EReal)) * (w k : EReal) := by
  have e1 : (∑ n : ι, (a n : EReal) * ∑ k : κ, (y n k : EReal) * (w k : EReal))
      = ((∑ n : ι, a n * ∑ k : κ, y n k * w k : ℝ) : EReal) := by
    rw [coe_sum]
    refine Finset.sum_congr rfl fun n _ => ?_
    rw [EReal.coe_mul, coe_sum]
    refine congrArg _ (Finset.sum_congr rfl fun k _ => ?_)
    rw [EReal.coe_mul]
  have e2 : (∑ k : κ, (∑ n : ι, (a n : EReal) * (y n k : EReal)) * (w k : EReal))
      = ((∑ k : κ, (∑ n : ι, a n * y n k) * w k : ℝ) : EReal) := by
    rw [coe_sum]
    refine Finset.sum_congr rfl fun k _ => ?_
    rw [EReal.coe_mul, coe_sum]
    refine congrArg (· * _) (Finset.sum_congr rfl fun n _ => ?_)
    rw [EReal.coe_mul]
  rw [e1, e2]
  refine congrArg _ ?_
  simp only [Finset.mul_sum, Finset.sum_mul]
  rw [Finset.sum_comm]
  refine Finset.sum_congr rfl fun k _ => Finset.sum_congr rfl fun n _ => ?_
  ring

section Finite

variable (A : Fin 4096 → Fin 4096 → ℝ) (x : Fin 4096 → Fin 32 → ℝ) (W : Fin 32 → Fin 32 → ℝ) (b : Fin 32 → ℝ)

/-- On real entries a kept column of the second hidden layer is the first hidden layer's column. -/
theorem hidR_keep (r : Fin 4096) (j : Fin 128) (h : j.val < 32) :
    hidR (fun r n => (A r n : EReal)) (fun n k => (x n k : EReal)) (fun k j => (W k j : EReal)) (fun j => (b j : EReal)) r j
      = hidK (fun r n => (A r n : EReal)) (fun n k => (x n k : EReal)) (fun k j => (W k j : EReal)) (fun j => (b j : EReal)) r ⟨j.val, h⟩ := by
  unfold hidR hidK
  rw [← sum_halves (fun n => (A r n : EReal) * support (fun n k => (x n k : EReal)) (fun k j => (W k j : EReal)) n j)]
  have hs : ∀ n, support (fun n k => (x n k : EReal)) (fun k j => (W k j : EReal)) n j
      = ∑ k : Fin 32, (x n k : EReal) * (W k ⟨j.val, h⟩ : EReal) := fun n => by
    unfold support padW; simp only [dif_pos h]
  simp only [hs]
  rw [regroup (A r) x (fun k => W k ⟨j.val, h⟩)]
  unfold padB; rw [dif_pos h]

/-- THE LAW: on real entries the two Gram matrices agree. -/
theorem gram_eq (r c : Fin 4096) :
    gramK (fun r n => (A r n : EReal)) (fun n k => (x n k : EReal)) (fun k j => (W k j : EReal)) (fun j => (b j : EReal)) r c
      = gramR (fun r n => (A r n : EReal)) (fun n k => (x n k : EReal)) (fun k j => (W k j : EReal)) (fun j => (b j : EReal)) r c := by
  unfold gramK gramR
  rw [Fin.sum_univ_add (a := 32) (b := 96)
    (fun j : Fin 128 => hidR (fun r n => (A r n : EReal)) (fun n k => (x n k : EReal)) (fun k j => (W k j : EReal)) (fun j => (b j : EReal)) r j
      * hidR (fun r n => (A r n : EReal)) (fun n k => (x n k : EReal)) (fun k j => (W k j : EReal)) (fun j => (b j : EReal)) c j)]
  have hpad : ∀ i : Fin 96, ¬ (Fin.natAdd 32 i : Fin (32 + 96)).val < 32 := fun i => by
    rw [Fin.coe_natAdd]; omega
  have hkeep : ∀ i : Fin 32, (Fin.castAdd 96 i : Fin (32 + 96)).val < 32 := fun i => by
    rw [Fin.coe_castAdd]; exact i.isLt
  have z : (∑ i : Fin 96, hidR (fun r n => (A r n : EReal)) (fun n k => (x n k : EReal)) (fun k j => (W k j : EReal)) (fun j => (b j : EReal)) r (Fin.natAdd 32 i)
      * hidR (fun r n => (A r n : EReal)) (fun n k => (x n k : EReal)) (fun k j => (W k j : EReal)) (fun j => (b j : EReal)) c (Fin.natAdd 32 i)) = 0 :=
    Finset.sum_eq_zero fun i _ => by rw [hidR_pad _ _ _ _ r _ (hpad i), zero_mul]
  rw [z, add_zero]
  refine Finset.sum_congr rfl fun i _ => ?_
  rw [hidR_keep A x W b r _ (hkeep i), hidR_keep A x W b c _ (hkeep i)]
  rfl

end Finite

end Cert.Proof.Spec

end
-- ==== Proof.KvHidden.lean ====
/-
  The first pallas_call of the kernel, read as a value: the hidden layer.

  Grid point t stages the 512-row strip t of A and the whole of X, W and the bias row, and stores into strip t of
  the result the block  max ((A_t · X) · W + bias, 0).  Read at an index, the two matrix products into zero
  accumulators are plain sums, so strip t of the result is strip t of ONE function of the four arrays: entry (r, j)
  is  max (∑ k, (∑ n, A (r, n) * X (n, k)) * W (k, j) + bias (0, j), 0).  The eight strips tile the 4096 rows, so
  after the call the result array IS that function.
-/
import proofs.«135639_g2000505199253694_pallasbulk_90_2_alg».proof.Proof.KiRegion0
import proofs.«135639_g2000505199253694_pallasbulk_90_2_alg».proof.Proof.LibPlainDot
import proofs.«135639_g2000505199253694_pallasbulk_90_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Cert.KernelIdeal.Hand
open Idealize.ShloMosaic Idealize.ShloMosaic.ValueIdx Idealize.ShloMosaic.TcCoe
open Idealize.ShloMosaic.Pipeline (Dat)
open Cert.Proof

/-- The hidden layer as one function of the four arrays, index by index. -/
def hidden (A : S4096x4096.Idx → EReal) (X : S4096x32.Idx → EReal) (W : S32x32.Idx → EReal) (B : S1x32.Idx → EReal) :
    S4096x32.Idx → EReal := fun i =>
  Spec.hidK (fun r n => A (ix2 r n)) (fun n k => X (ix2 n k)) (fun k j => W (ix2 k j)) (fun j => B (ix2 (0 : Fin 1) j)) (i 0) (i 1)

/-- The body's stored value at (p, q): both matrix products are plain sums at the ideal values, the bias row is
    read at column q, and the comparison is with the real 0. -/
theorem hid_pay (v0 : Vec Ideal S512x4096 .f32) (v1 : Vec Ideal S4096x32 .f32) (v3 : Vec Ideal S32x32 .f32) (v5 : Vec Ideal S1x32 .f32)
    (p : Fin 512) (q : Fin 32) :
    k0_pay1 (F := Ideal) v0 v1 v3 v5 (ix2 p q)
      = max ((∑ k : Fin 32, (∑ n : Fin 4096, v0 (ix2 p n) * v1 (ix2 n k)) * v3 (ix2 k q)) + v5 (ix2 (0 : Fin 1) q)) 0 := by
  unfold k0_pay1
  rw [maximumf_apply, addf_apply, broadcast_apply]
  rw [show dot_S512x32_S32x32_S512x32_1_0_0_1_n_n = DotDims.plain 512 32 32 from rfl,
    show dot_S512x4096_S4096x32_S512x32_1_0_0_1_n_n = DotDims.plain 512 4096 32 from rfl]
  rw [PlainDot.matmulZero_apply]
  simp only [PlainDot.matmulZero_apply]
  rw [shapeCast_self, broadcastTo_1b_ab_apply]
  rw [Ideal.ofBits_def, Ideal.ofBits_zero_f32]

/-- A strip of the hidden layer from a strip of A: if `x0` holds rows 512·T … of A and the other three blocks are
    the whole arrays, the stored value at (p, q) is the hidden layer at row 512·T + p. -/
theorem hid_strip (A : S4096x4096.Idx → EReal) (X : S4096x32.Idx → EReal) (W : S32x32.Idx → EReal) (B : S1x32.Idx → EReal)
    (x0 : Vec Ideal S512x4096 .f32) (x1 : Vec Ideal S4096x32 .f32) (x2 : Vec Ideal S32x32 .f32) (x3 : Vec Ideal S1x32 .f32)
    (r : Fin 4096) (p : Fin 512) (q : Fin 32)
    (h0 : ∀ n : Fin 4096, x0 (ix2 p n) = A (ix2 r n)) (h1 : ∀ y, x1 y = X y) (h2 : ∀ y, x2 y = W y) (h3 : ∀ y, x3 y = B y) :
    k0_pay1 (F := Ideal) x0 x1 x2 x3 (ix2 p q) = hidden A X W B (ix2 r q) := by
  rw [hid_pay]
  simp only [h0, h1, h2, h3]
  rfl

variable (V : (c : Dev nD) → (b : Ref sig .tc) → Buf (Elt Ideal) ((c : Thread nD τ).loc b))

/-- The printed index maps over the grid: the strip windows (A's and the result's) sit at block row t, every other
    block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem hz : (![0, 0] : Fin 2 → Nat) = fun _ => 0 := funext fun a => by fin_cases a <;> rfl

/-- Strip t of A read at (p, n) is A at row 512·t + p. -/
theorem blk_A (c : Dev nD) (t : Fin cfg0.N) (p : Fin 512) (n : Fin 4096) (r : Fin 4096) (hr : r.val = 512 * t.val + p.val) :
    iblk0 V c 0 t (ix2 p n) = V c main_arg1 (ix2 r n) := by
  show V c main_arg1 (((cfg0.win 0).blk t).view.emb (ix2 p n)) = _
  refine congrArg _ (funext fun a => Fin.ext ?_)
  obtain ⟨e0, e1, -⟩ := idx_facts0 t
  match a with
  | ⟨0, _⟩ => show win0_0.index t (0 : Fin 2) * 512 + 1 * p.val = r.val; omega
  | ⟨1, _⟩ => show win0_0.index t (1 : Fin 2) * 4096 + 1 * n.val = n.val; omega

/-- The windows on X, W and the bias row stage the whole array at every point. -/
theorem blk_X (c : Dev nD) (t : Fin cfg0.N) (y : S4096x32.Idx) : iblk0 V c 1 t y = V c main_arg0 y := by
  show V c main_arg0 (((cfg0.win 1).blk t).view.emb y) = _
  refine congrArg _ (funext fun a => Fin.ext ?_)
  obtain ⟨-, -, e0, e1, -⟩ := idx_facts0 t
  match a with
  | ⟨0, _⟩ => show win0_1.index t (0 : Fin 2) * 4096 + 1 * (y 0).val = (y 0).val; omega
  | ⟨1, _⟩ => show win0_1.index t (1 : Fin 2) * 32 + 1 * (y 1).val = (y 1).val; omega
theorem blk_W (c : Dev nD) (t : Fin cfg0.N) (y : S32x32.Idx) : iblk0 V c 2 t y = V c main_arg2 y := by
  show V c main_arg2 (((cfg0.win 2).blk t).view.emb y) = _
  refine congrArg _ (funext fun a => Fin.ext ?_)
  obtain ⟨-, -, -, -, e0, e1, -⟩ := idx_facts0 t
  match a with
  | ⟨0, _⟩ => show win0_2.index t (0 : Fin 2) * 32 + 1 * (y 0).val = (y 0).val; omega
  | ⟨1, _⟩ => show win0_2.index t (1 : Fin 2) * 32 + 1 * (y 1).val = (y 1).val; omega
theorem blk_B (c : Dev nD) (t : Fin cfg0.N) (y : S1x32.Idx) : iblk0 V c 3 t y = V c main_v0 y := by
  show V c main_v0 (((cfg0.win 3).blk t).view.emb y) = _
  refine congrArg _ (funext fun a => Fin.ext ?_)
  obtain ⟨-, -, -, -, -, -, e0, e1, -⟩ := idx_facts0 t
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- WHAT POINT t WRITES BACK is strip t of the hidden layer of the arrays as the call finds them. -/
theorem hid_flushed (c : Dev nD) (t : Fin cfg0.N) :
    (dat0 V c).flushed 4 t = ((cfg0.win 4).blk t).view.read (Elt Ideal)
      (hidden (V c main_arg1) (V c main_arg0) (V c main_arg2) (V c main_v0)) := by
  show (cfg0.win 4).cut (grid0.coords t) ((dat0 V c).after 4 t) = _
  rw [after0_4]
  unfold out0_4
  rw [View.canon_unit_zero hz]
  simp only [View.ld_unit_zero (S := S512x4096) hz, View.ld_unit_zero (S := S4096x32) hz, View.ld_unit_zero (S := S32x32) hz,
    View.ld_unit_zero (S := S1x32) hz]
  have ht : t.val < 8 := by have h1 : t.val < cfg0.N := t.isLt; have h8 : cfg0.N = 8 := N_0; omega
  obtain ⟨-, -, -, -, -, -, -, -, e8, e9⟩ := idx_facts0 t
  funext y
  have hy0 : (y 0).val < 512 := (y 0).isLt
  have key := hid_strip (V c main_arg1) (V c main_arg0) (V c main_arg2) (V c main_v0)
    (iblk0 V c 0 t) (iblk0 V c 1 t) (iblk0 V c 2 t) (iblk0 V c 3 t)
    ⟨512 * t.val + (y 0).val, by omega⟩ (y 0) (y 1)
    (fun n => blk_A V c t (y 0) n _ rfl) (blk_X V c t) (blk_W V c t) (blk_B V c t)
  show k0_pay1 (F := Ideal) (iblk0 V c 0 t) (iblk0 V c 1 t) (iblk0 V c 2 t) (iblk0 V c 3 t) y
    = hidden (V c main_arg1) (V c main_arg0) (V c main_arg2) (V c main_v0) (((cfg0.win 4).blk t).view.emb y)
  refine (congrArg (k0_pay1 (F := Ideal) (iblk0 V c 0 t) (iblk0 V c 1 t) (iblk0 V c 2 t) (iblk0 V c 3 t))
    (eq_ix2 (n0 := 512) (n1 := 32) y)).trans (key.trans (congrArg _ (funext fun a => Fin.ext ?_)))
  match a with
  | ⟨0, _⟩ => show 512 * t.val + (y 0).val = win0_4.index t (0 : Fin 2) * 512 + 1 * (y 0).val; omega
  | ⟨1, _⟩ => show (y 1).val = win0_4.index t (1 : Fin 2) * 32 + 1 * (y 1).val; omega

/-- An index of the result is in point t's strip iff each coordinate is in the strip's range on its axis. -/
theorem mem_strip (t : Fin cfg0.N) (i : S4096x32.Idx) :
    i ∈ ((cfg0.win 4).blk t).view.set ↔ ∀ a : Fin 2, win0_4.index t a * S512x32.size a ≤ (i a).val
      ∧ (i a).val < win0_4.index t a * S512x32.size a + S512x32.size a := by
  show i ∈ ((View.whole main_v1).slice (win0_4.rect t)).set ↔ _
  rw [View.set_slice_whole, Rect.mem_set_unit]
  exact Iff.rfl

/-- The eight strips tile the rows: row r lies in strip r / 512. -/
theorem hid_cover (i : S4096x32.Idx) :
    ∃ t : Fin cfg0.N, (cfg0.win 4).flush t = true ∧ i ∈ ((cfg0.win 4).blk t).view.set := by
  have hi0 : (i 0).val < 4096 := (i 0).isLt
  have hi1 : (i 1).val < 32 := (i 1).isLt
  have h8 : cfg0.N = 8 := N_0
  let t : Fin cfg0.N := ⟨(i 0).val / 512, by omega⟩
  refine ⟨t, flush0_4 t, ?_⟩
  rw [mem_strip]
  obtain ⟨-, -, -, -, -, -, -, -, e8, e9⟩ := idx_facts0 t
  have tv : t.val = (i 0).val / 512 := rfl
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 32 ≤ (i 1).val ∧ (i 1).val < win0_4.index t (1 : Fin 2) * 32 + 32; omega

/-- THE RESULT ARRAY after the first call is the hidden layer of the arrays as the call finds them. -/
theorem hid_final (c : Dev nD) :
    (dat0 V c).arrAt 4 cfg0.N = hidden (V c main_arg1) (V c main_arg0) (V c main_arg2) (V c main_v0) :=
  (dat0 V c).arrAt_eq_of_cover 4 _ (fun t _ => hid_flushed V c t) hid_cover

end Cert.KernelIdeal.KVal

end
-- ==== Proof.LibGramDot.lean ====
/-
  A matrix product with the right operand contracted on its LAST axis, at the ideal values, read at an index.

  For the dimension numbers `DotDims.transposedRhs M K N` (rows × contraction times columns × contraction, no
  batch axis: the product of a matrix with the transpose of another) the element (r, c) of the product is
  `∑ k : Fin K, l (r, k) * r (c, k)` on the extended reals, both for the host's `dot_general` and for a
  `tpu.matmul` into the zero accumulator: no rounding, no order of summation and no tiling is left in either.
-/
import Idealize.ShloMosaic.Lib.ValueIdx
import Idealize.ShloMosaic.PureOps.Ideal.Laws

noncomputable section

namespace Idealize.ShloMosaic.GramDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's ROW coordinate is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the one-axis contraction index is the sum over `k : Fin K` of row entry times row entry. -/
theorem sum_contr (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl j _).trans hk)
  exact congrArg₂ (· * ·) (congrArg l el) (congrArg r er)

/-- The host's `dot_general` with the right operand contracted on its last axis, at an index. -/
theorem hostDot_apply (l : FVec Ideal ⟨2, ![M, K]⟩ φ₁) (r : FVec Ideal ⟨2, ![N, K]⟩ φ₂)
    (j : (⟨2, ![M, N]⟩ : Shape).Idx) :
    Host.dotGeneral (F := Ideal) (DotDims.transposedRhs M K N) none l r j = ∑ k : Fin K, l (ix2 (j 0) k) * r (ix2 (j 1) k) := by
  simp only [Host.dotGeneral]
  rw [Ideal.dotGeneral_apply]
  exact sum_contr l r j

/-- A `tpu.matmul` with the right operand contracted on its last axis, into the zero accumulator, at an index. -/
theorem matmulZero_apply (l : FVec Ideal ⟨2, ![M, K]⟩ φ₁) (r : FVec Ideal ⟨2, ![N, K]⟩ φ₂)
    (j : (⟨2, ![M, N]⟩ : Shape).Idx) :
    matmul (F := Ideal) (DotDims.transposedRhs M K N) none l r (constant ⟨2, ![M, N]⟩ .f32 0x00000000#32) j
      = ∑ k : Fin K, l (ix2 (j 0) k) * r (ix2 (j 1) k) := by
  simp only [matmul]
  rw [Ideal.matmul_constant_zero_apply]
  exact sum_contr l r j

end Idealize.ShloMosaic.GramDot

end
-- ==== Proof.KvGram.lean ====
/-
  The second pallas_call of the kernel, read as a value: the Gram matrix of the hidden layer.

  Grid point t stages the 512-row strip t of the hidden layer H and, through a second window on the same array,
  the whole of H, and stores into the 512 × 4096 strip t of the result the product of the strip with the transpose
  of H. Read at an index that is  ∑ j, H (r, j) * H (c, j)  with r the strip's row, so strip t of the result is
  strip t of ONE function of H, and the eight strips tile the 4096 rows.
-/
import proofs.«135639_g2000505199253694_pallasbulk_90_2_alg».proof.Proof.KiRegion1
import proofs.«135639_g2000505199253694_pallasbulk_90_2_alg».proof.Proof.LibGramDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Cert.KernelIdeal.Hand
open Idealize.ShloMosaic Idealize.ShloMosaic.ValueIdx Idealize.ShloMosaic.TcCoe
open Idealize.ShloMosaic.Pipeline (Dat)

/-- The Gram matrix of a 4096 × 32 array, index by index. -/
def gramOf (H : S4096x32.Idx → EReal) : S4096x4096.Idx → EReal := fun i =>
  ∑ j : Fin 32, H (ix2 (i 0) j) * H (ix2 (i 1) j)

/-- The body's stored value at (p, q): the product with a transpose into the zero accumulator is a plain sum of
    row-times-row products at the ideal values. -/
theorem gram_pay (v0 : Vec Ideal S512x32 .f32) (v2 : Vec Ideal S4096x32 .f32) (p : Fin 512) (q : Fin 4096) :
    k1_pay1 (F := Ideal) v0 v2 (ix2 p q) = ∑ j : Fin 32, v0 (ix2 p j) * v2 (ix2 q j) := by
  unfold k1_pay1
  simp only [shapeCast_self]
  rw [show dot_S512x32_S4096x32_S512x4096_1_1_0_0_n_n = DotDims.transposedRhs 512 32 4096 from rfl]
  rw [GramDot.matmulZero_apply]

/-- A strip of the Gram matrix from a strip of H: if `x0` holds rows of H with its row p being H's row r, and `x1`
    is the whole of H, the stored value at (p, q) is the Gram matrix at (r, q). -/
theorem gram_strip (H : S4096x32.Idx → EReal) (x0 : Vec Ideal S512x32 .f32) (x1 : Vec Ideal S4096x32 .f32)
    (r : Fin 4096) (p : Fin 512) (q : Fin 4096)
    (h0 : ∀ j : Fin 32, x0 (ix2 p j) = H (ix2 r j)) (h1 : ∀ y, x1 y = H y) :
    k1_pay1 (F := Ideal) x0 x1 (ix2 p q) = gramOf H (ix2 r q) := by
  rw [gram_pay]
  simp only [h0, h1]
  rfl

variable (V : (c : Dev nD) → (b : Ref sig .tc) → Buf (Elt Ideal) ((c : Thread nD τ).loc b))

/-- The printed index maps over the grid: the two strip windows sit at block row t, every other block index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem hz1 : (![0, 0] : Fin 2 → Nat) = fun _ => 0 := funext fun a => by fin_cases a <;> rfl

/-- Strip t of H read at (p, j) is H at row 512·t + p. -/
theorem blk_S (c : Dev nD) (t : Fin cfg1.N) (p : Fin 512) (j : Fin 32) (r : Fin 4096) (hr : r.val = 512 * t.val + p.val) :
    iblk1 V c 0 t (ix2 p j) = V c main_v1 (ix2 r j) := by
  show V c main_v1 (((cfg1.win 0).blk t).view.emb (ix2 p j)) = _
  refine congrArg _ (funext fun a => Fin.ext ?_)
  obtain ⟨e0, e1, -⟩ := idx_facts1 t
  match a with
  | ⟨0, _⟩ => show win1_0.index t (0 : Fin 2) * 512 + 1 * p.val = r.val; omega
  | ⟨1, _⟩ => show win1_0.index t (1 : Fin 2) * 32 + 1 * j.val = j.val; omega

/-- The second window stages the whole of H at every point. -/
theorem blk_H (c : Dev nD) (t : Fin cfg1.N) (y : S4096x32.Idx) : iblk1 V c 1 t y = V c main_v1 y := by
  show V c main_v1 (((cfg1.win 1).blk t).view.emb y) = _
  refine congrArg _ (funext fun a => Fin.ext ?_)
  obtain ⟨-, -, e0, e1, -⟩ := idx_facts1 t
  match a with
  | ⟨0, _⟩ => show win1_1.index t (0 : Fin 2) * 4096 + 1 * (y 0).val = (y 0).val; omega
  | ⟨1, _⟩ => show win1_1.index t (1 : Fin 2) * 32 + 1 * (y 1).val = (y 1).val; omega

/-- WHAT POINT t WRITES BACK is strip t of the Gram matrix of H as the call finds it. -/
theorem gram_flushed (c : Dev nD) (t : Fin cfg1.N) :
    (dat1 V c).flushed 2 t = ((cfg1.win 2).blk t).view.read (Elt Ideal) (gramOf (V c main_v1)) := by
  show (cfg1.win 2).cut (grid1.coords t) ((dat1 V c).after 2 t) = _
  rw [after1_2]
  unfold out1_2
  rw [View.canon_unit_zero hz1]
  simp only [View.ld_unit_zero (S := S512x32) hz1, View.ld_unit_zero (S := S4096x32) hz1]
  have ht : t.val < 8 := by have h1 : t.val < cfg1.N := t.isLt; have h8 : cfg1.N = 8 := N_1; omega
  obtain ⟨-, -, -, -, e4, e5⟩ := idx_facts1 t
  funext y
  have hy0 : (y 0).val < 512 := (y 0).isLt
  have key := gram_strip (V c main_v1) (iblk1 V c 0 t) (iblk1 V c 1 t)
    ⟨512 * t.val + (y 0).val, by omega⟩ (y 0) (y 1)
    (fun j => blk_S V c t (y 0) j _ rfl) (blk_H V c t)
  show k1_pay1 (F := Ideal) (iblk1 V c 0 t) (iblk1 V c 1 t) y
    = gramOf (V c main_v1) (((cfg1.win 2).blk t).view.emb y)
  refine (congrArg (k1_pay1 (F := Ideal) (iblk1 V c 0 t) (iblk1 V c 1 t))
    (eq_ix2 (n0 := 512) (n1 := 4096) y)).trans (key.trans (congrArg _ (funext fun a => Fin.ext ?_)))
  match a with
  | ⟨0, _⟩ => show 512 * t.val + (y 0).val = win1_2.index t (0 : Fin 2) * 512 + 1 * (y 0).val; omega
  | ⟨1, _⟩ => show (y 1).val = win1_2.index t (1 : Fin 2) * 4096 + 1 * (y 1).val; omega

/-- An index of the result is in point t's strip iff each coordinate is in the strip's range on its axis. -/
theorem mem_gstrip (t : Fin cfg1.N) (i : S4096x4096.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v2).slice (win1_2.rect t)).set ↔ _
  rw [View.set_slice_whole, Rect.mem_set_unit]
  exact Iff.rfl

/-- The eight strips tile the rows: row r lies in strip r / 512. -/
theorem gram_cover (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have h8 : cfg1.N = 8 := N_1
  let t : Fin cfg1.N := ⟨(i 0).val / 512, by omega⟩
  refine ⟨t, flush1_2 t, ?_⟩
  rw [mem_gstrip]
  obtain ⟨-, -, -, -, e4, e5⟩ := idx_facts1 t
  have tv : t.val = (i 0).val / 512 := rfl
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- THE RESULT ARRAY after the second call is the Gram matrix of the hidden layer as the call finds it. -/
theorem gram_final (c : Dev nD) : (dat1 V c).arrAt 2 cfg1.N = gramOf (V c main_v1) :=
  (dat1 V c).arrAt_eq_of_cover 2 _ (fun t _ => gram_flushed V c t) gram_cover

end Cert.KernelIdeal.KVal

end
-- ==== Proof.KvRun.lean ====
/-
  The kernel's run, read as a value.

  After the host has reshaped the bias to a 1 × 32 row, the first call leaves the hidden layer of (A, X, W, bias row)
  in its result array and the second call leaves the Gram matrix of that array in the program's result; no other
  operation touches either. So the program's result is ONE function of the four argument arrays: entry (r, c) is
  `Spec.gramK` of their coordinate functions, the hidden layer's product grouped as (A · X) · W.
-/
import proofs.«135639_g2000505199253694_pallasbulk_90_2_alg».proof.Proof.KiRun
import proofs.«135639_g2000505199253694_pallasbulk_90_2_alg».proof.Proof.KvHidden
import proofs.«135639_g2000505199253694_pallasbulk_90_2_alg».proof.Proof.KvGram
import proofs.«135639_g2000505199253694_pallasbulk_90_2_alg».proof.Proof.Spec
import Idealize.ShloMosaic.Lib.StableHlo.Run

set_option maxRecDepth 16384

noncomputable section

namespace Cert.KernelIdeal.KVal

open Cert.KernelIdeal Cert.KernelIdeal.Gen Cert.KernelIdeal.Hand
open Idealize.ShloMosaic Idealize.ShloMosaic.ValueIdx Idealize.ShloMosaic.TcCoe Idealize.SL.Sem
open Cert.Proof

/-- The program's result as one function of the four argument arrays. -/
def result (a0 : S4096x32.Idx → EReal) (a1 : S4096x4096.Idx → EReal) (a2 : S32x32.Idx → EReal) (a3 : S32.Idx → EReal) :
    S4096x4096.Idx → EReal := fun i =>
  Spec.gramK (fun r n => a1 (ix2 r n)) (fun n k => a0 (ix2 n k)) (fun k j => a2 (ix2 k j)) (fun j => a3 (ix1 j)) (i 0) (i 1)

/-- The Gram matrix of the hidden layer over the reshaped bias is that function. -/
theorem gram_hidden (a0 : S4096x32.Idx → EReal) (a1 : S4096x4096.Idx → EReal) (a2 : S32x32.Idx → EReal) (a3 : S32.Idx → EReal)
    (h : S32.ShapeCasts S1x32) :
    gramOf (hidden a1 a0 a2 (shapeCast S1x32 a3 h)) = result a0 a1 a2 a3 := by
  funext i
  unfold gramOf hidden result Spec.gramK Spec.hidK
  simp only [shapeCast_a_1a_apply]

variable (m : (ℓ : Loc nD τ sig) → Buf (Elt Ideal) ℓ) (ρ : Dev nD → PrngReg)

/-- What the first call finds in the bias row's buffer: the host's reshape of the bias argument. -/
theorem bias_row (c : Dev nD) :
    (V1 m ρ c main_v0 : S1x32.Idx → EReal) = shapeCast S1x32 (m ((c : Thread nD τ).loc main_arg3)) shapeCasts_S32_S1x32 := by
  show StableHlo.after hostOps0 (W0 m ρ c) (Proc.devRef .tc main_v0) = _
  after_results
  rfl

/-- THE RESULT ARRAY after the run is the function of the launch memory's argument arrays. -/
theorem final (c : Dev nD) :
    W4 m ρ c (Proc.devRef .tc main_v2)
      = result (m ((c : Thread nD τ).loc main_arg0)) (m ((c : Thread nD τ).loc main_arg1))
          (m ((c : Thread nD τ).loc main_arg2)) (m ((c : Thread nD τ).loc main_arg3)) := by
  rw [W4_main_v2, gram_final, V3_main_v1, W2_main_v1, hid_final, V1_main_arg0, V1_main_arg1, V1_main_arg2, bias_row, gram_hidden]

/-- THE RUN: every weakly fair execution terminates with the result at that function and the arguments unchanged. -/
theorem run : θ_run defs (onTc (τ := τ) (main (F := Ideal))) ⟨m, fun _ => 0, ρ⟩ (fun r => ∀ c : Dev nD,
      r.2.mem ((c.tc : Thread nD τ).loc main_v2)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_v2 (by decide))).trans (final m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.KVal

end
-- ==== Proof.RiRegion0Runs.lean ====
import proofs.«135639_g2000505199253694_pallasbulk_90_2_alg».proof.Proof.Gen.ReferenceIdeal.Launch
import proofs.«135639_g2000505199253694_pallasbulk_90_2_alg».proof.Proof.Gen.ReferenceIdeal.Skeleton
import proofs.«135639_g2000505199253694_pallasbulk_90_2_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the first call on whole buffers: its two control cases

The first call's body accumulates, over the two contraction blocks `k = 0, 1` of a row block `i`, the product of a
`512×2048` block of the left operand with a `2048×128` slab of the right one into a `512×128` accumulator it
carries between grid points; at `k = 0` it first zeroes the accumulator, at `k = 1` it adds the bias row, clamps
at zero and stores the row block of the result. -/

theorem hz2 : (![0, 0] : Fin 2 → Nat) = fun _ => 0 := funext fun a => by fin_cases a <;> rfl

/-- The whole-buffer rectangles the body loads and stores through. -/
abbrev rS : Rect S512x128 := Rect.unit (s := S512x128) ![0, 0] S512x128.size inb_S512x128_S512x128_0_0
abbrev rA : Rect S512x2048 := Rect.unit (s := S512x2048) ![0, 0] S512x2048.size inb_S512x2048_S512x2048_0_0
abbrev rB : Rect S2048x128 := Rect.unit (s := S2048x128) ![0, 0] S2048x128.size inb_S2048x128_S2048x128_0_0
abbrev rC : Rect S1x128 := Rect.unit (s := S1x128) ![0, 0] S1x128.size inb_S1x128_S1x128_0_0

/-- The body's first condition, "the contraction coordinate is 0", as the body computes it from the grid coordinates. -/
abbrev cond0_0 (i : grid0.Coords) : Prop := (Scalar.cmpi .ne (Scalar.extui (Scalar.cmpi .eq (BitVec.ofNat 32 (i 1).val) 0#32)) 0#32) = 1#1
/-- The body's second condition, "the contraction coordinate is the last, 1". -/
abbrev cond0_1 (i : grid0.Coords) : Prop := k0_cond2 i = 1#1

/-! ## What the body leaves, as functions of what it reads -/

/-- The accumulator after the zeroing store. -/
def accZero : Vec F S512x128 .f32 := View.canon [⟨rS, k0_pay1⟩]
/-- The accumulator after one contraction step from contents `s`: `s` plus the product of the two blocks. -/
def accStep (s : Vec F S512x128 .f32) (a : Vec F S512x2048 .f32) (b : Vec F S2048x128 .f32) : Vec F S512x128 .f32 :=
  View.canon [⟨rS, k0_pay2 (View.ld s rS) (View.ld a rA) (View.ld b rB)⟩]
/-- The output's buffer after the last contraction step: the accumulator `s` plus the bias row `x2`, clamped at zero. -/
def out0_3 (s : Vec F S512x128 .f32) (x2 : Vec F S1x128 .f32) : Vec F S512x128 .f32 :=
  View.canon [⟨rS, k0_pay3 (View.ld s rS) (View.ld x2 rC)⟩]

/-- Through whole-buffer rectangles the three are the payloads themselves. -/
theorem accZero_eq : accZero (F := F) = k0_pay1 := by
  unfold accZero; rw [View.canon_unit_zero hz2]
theorem accStep_eq (s : Vec F S512x128 .f32) (a : Vec F S512x2048 .f32) (b : Vec F S2048x128 .f32) :
    accStep s a b = k0_pay2 s a b := by
  unfold accStep; rw [View.canon_unit_zero hz2, View.ld_unit_zero hz2, View.ld_unit_zero hz2, View.ld_unit_zero hz2]
theorem out0_3_eq (s : Vec F S512x128 .f32) (x2 : Vec F S1x128 .f32) : out0_3 s x2 = k0_pay3 s x2 := by
  unfold out0_3; rw [View.canon_unit_zero hz2, View.ld_unit_zero hz2, View.ld_unit_zero hz2]

/-! ## The two runs -/

set_option maxHeartbeats 1000000 in
/-- CASE `k = 0`. On whole buffers — the three inputs' at read contents `x0`, `x1`, `x2`, the output's at `x3`, the
    accumulator at anything — the body runs to the continuation holding the inputs' and the output's buffers as they
    were and the accumulator at one step from zero over the two blocks. -/
theorem runA (c : Dev nD) (E : Set ℕ) (i : grid0.Coords)
    (arg2 : Memref sig .tc .vmem S512x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S512x128 .f32) (harg5 : arg5.IsWhole)
    (arg6 : Memref sig .tc .vmem S512x128 .f32) (harg6 : arg6.IsWhole) (hc0 : cond0_0 i) (hc1 : ¬cond0_1 i)
    (x0 : Vec F S512x2048 .f32) (x1 : Vec F S2048x128 .f32) (x2 : Vec F S1x128 .f32) (x3 : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accStep accZero x0 x1)) -∗ K ⟨⟩))
      ⊢ wp frame (wpE (defs₀ (F := F)) Variants.none c none) E (cc0__gcn_relu_kernel i arg2 harg2 arg3 harg3 arg4 harg4 arg5 harg5 arg6 harg6) K := by
  simp only [cc0__gcn_relu_kernel_eq_skeleton]; unfold cc0__gcn_relu_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [accStep_eq, accZero_eq,
    View.read_writes_eq_canon _ _ _ (fun y => ⟨_, List.mem_cons.mpr (Or.inl rfl), View.mem_set_unit_zero hz2 inb_S512x128_S512x128_0_0 y⟩),
    View.canon_cons_unit_zero hz2, View.readCov_unit_zero _ hz2]
  simp only [View.readAt_eq_ld, View.ld_unit_zero (S := S512x128) hz2, View.ld_unit_zero (S := S512x2048) hz2,
    View.ld_unit_zero (S := S2048x128) hz2, View.ld_unit_zero (S := S1x128) hz2]

set_option maxHeartbeats 1000000 in
/-- CASE `k = 1`. On whole buffers — the three inputs' at read contents `x0`, `x1`, `x2`, the accumulator at `xs`, the
    output's at anything — the body runs to the continuation holding the inputs' buffers as they were, the
    accumulator one step on from `xs`, and the output's buffer at that accumulator plus the bias row, clamped at zero. -/
theorem runB (c : Dev nD) (E : Set ℕ) (i : grid0.Coords)
    (arg2 : Memref sig .tc .vmem S512x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S512x128 .f32) (harg5 : arg5.IsWhole)
    (arg6 : Memref sig .tc .vmem S512x128 .f32) (harg6 : arg6.IsWhole) (hc0 : ¬cond0_0 i) (hc1 : cond0_1 i)
    (x0 : Vec F S512x2048 .f32) (x1 : Vec F S2048x128 .f32) (x2 : Vec F S1x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out0_3 (accStep xs x0 x1) x2) ∗ owns (c : Thread nD τ) arg6 fullShare (accStep xs x0 x1)) -∗ K ⟨⟩))
      ⊢ wp frame (wpE (defs₀ (F := F)) Variants.none c none) E (cc0__gcn_relu_kernel i arg2 harg2 arg3 harg3 arg4 harg4 arg5 harg5 arg6 harg6) K := by
  simp only [cc0__gcn_relu_kernel_eq_skeleton]; unfold cc0__gcn_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [out0_3_eq, accStep_eq,
      View.read_writes_eq_canon _ _ _ (fun y => ⟨_, List.mem_cons.mpr (Or.inl rfl), View.mem_set_unit_zero hz2 inb_S512x128_S512x128_0_0 y⟩),
      View.canon_cons_unit_zero hz2, View.readCov_unit_zero _ hz2]
    simp only [View.readAt_eq_ld, View.ld_unit_zero (S := S512x128) hz2, View.ld_unit_zero (S := S512x2048) hz2,
    View.ld_unit_zero (S := S2048x128) hz2, View.ld_unit_zero (S := S1x128) hz2]
  iexists _; isplitr
  swap; · iexact HS
  ipureintro
  sl_unfold_run_names
  rw [accStep_eq,
    View.read_writes_eq_canon _ _ _ (fun y => ⟨_, List.mem_cons.mpr (Or.inl rfl), View.mem_set_unit_zero hz2 inb_S512x128_S512x128_0_0 y⟩),
    View.canon_cons_unit_zero hz2]
  simp only [View.readAt_eq_ld, View.ld_unit_zero (S := S512x128) hz2, View.ld_unit_zero (S := S512x2048) hz2,
    View.ld_unit_zero (S := S2048x128) hz2, View.ld_unit_zero (S := S1x128) hz2]

end Cert.ReferenceIdeal.Hand
end
-- ==== Proof.RiRegion0.lean ====
import proofs.«135639_g2000505199253694_pallasbulk_90_2_alg».proof.Proof.Gen.ReferenceIdeal.Launch
import proofs.«135639_g2000505199253694_pallasbulk_90_2_alg».proof.Proof.Gen.ReferenceIdeal.Skeleton
import proofs.«135639_g2000505199253694_pallasbulk_90_2_alg».proof.Proof.Gen.ReferenceIdeal.Points
import proofs.«135639_g2000505199253694_pallasbulk_90_2_alg».proof.Proof.RiRegion0Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call's region: blocks, the carried accumulator, proof data, body obligation

Everything is stated at a PARAMETER `V`: the core's buffer contents when the region is entered. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place: the left operand's window, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the right operand's, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias row's (one block, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output window is idle -/

/-- The first condition holds at the even points (contraction coordinate 0), -/
theorem hcond0_0 : ∀ t : Fin cfg0.N, cond0_0 (grid0.coords t) ↔ t.val % 2 = 0 :=
  (by decide +kernel : ∀ t : Fin grid0.N, cond0_0 (grid0.coords t) ↔ t.val % 2 = 0)
/-- the second at the odd ones (contraction coordinate 1). -/
theorem hcond0_1 : ∀ t : Fin cfg0.N, cond0_1 (grid0.coords t) ↔ t.val % 2 = 1 :=
  (by decide +kernel : ∀ t : Fin grid0.N, cond0_1 (grid0.coords t) ↔ t.val % 2 = 1)

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output's window is idle at the even points, and not written back there; live at the odd ones. -/
theorem idleAt0_3 : ∀ t : Fin cfg0.N, t.val % 2 = 0 → cfg0.idle 3 (grid0.coords t) = true := by decide +kernel
theorem noFlush0_3 : ∀ t : Fin cfg0.N, t.val % 2 = 0 → (cfg0.win 3).flush t = false := by decide +kernel
theorem liveAt0_3 : ∀ t : Fin cfg0.N, t.val % 2 = 1 → cfg0.idle 3 (grid0.coords t) = false := by decide +kernel

/-! ## The accumulator, point by point -/

/-- What the accumulator holds after the body at position `n`: at an even position one step from zero over the
    point's two blocks, at an odd one one step on from what the position before left. -/
def accAt (c : Dev nD) : (n : ℕ) → n < cfg0.N → Vec F S512x128 .f32
  | 0, h => accStep accZero (iblk0 V c 0 ⟨0, h⟩) (iblk0 V c 1 ⟨0, h⟩)
  | n + 1, h =>
    if (n + 1) % 2 = 0 then accStep accZero (iblk0 V c 0 ⟨n + 1, h⟩) (iblk0 V c 1 ⟨n + 1, h⟩)
    else accStep (accAt c n (Nat.lt_of_succ_lt h)) (iblk0 V c 0 ⟨n + 1, h⟩) (iblk0 V c 1 ⟨n + 1, h⟩)

/-- The accumulator after point `t`. -/
def acc0 (c : Dev nD) (t : Fin cfg0.N) : Vec F S512x128 .f32 := accAt V c t.val t.isLt

theorem accAt_even (c : Dev nD) (t : Fin cfg0.N) (h : t.val % 2 = 0) :
    accAt V c t.val t.isLt = accStep accZero (iblk0 V c 0 t) (iblk0 V c 1 t) := by
  obtain ⟨n, hn⟩ := t
  cases n with
  | zero => rfl
  | succ n => exact if_pos h

theorem accAt_odd (c : Dev nD) (t : Fin cfg0.N) (h : t.val % 2 = 1) :
    accAt V c t.val t.isLt
      = accStep (accAt V c (t.val - 1) (Nat.lt_of_le_of_lt (Nat.sub_le _ _) t.isLt)) (iblk0 V c 0 t) (iblk0 V c 1 t) := by
  obtain ⟨n, hn⟩ := t
  cases n with
  | zero => exact absurd h (by dsimp only; omega)
  | succ n => exact if_neg (by dsimp only at h ⊢; omega)

/-- At an even point: one step from zero over the point's two blocks. -/
theorem acc0_even (c : Dev nD) (t : Fin cfg0.N) (h : t.val % 2 = 0) :
    acc0 V c t = accStep accZero (iblk0 V c 0 t) (iblk0 V c 1 t) := accAt_even V c t h

/-- At an odd point: one step on from what the point before left. -/
theorem acc0_odd (c : Dev nD) (t : Fin cfg0.N) (h : t.val % 2 = 1) :
    acc0 V c t = accStep (acc0 V c ⟨t.val - 1, Nat.lt_of_le_of_lt (Nat.sub_le _ _) t.isLt⟩) (iblk0 V c 0 t) (iblk0 V c 1 t) :=
  accAt_odd V c t h

/-- The same two in the payloads alone (the whole-buffer rectangles stripped): at an even point the product of the
    point's two blocks added to the zero block, -/
theorem acc0_even_pay (c : Dev nD) (t : Fin cfg0.N) (h : t.val % 2 = 0) :
    acc0 V c t = k0_pay2 k0_pay1 (iblk0 V c 0 t) (iblk0 V c 1 t) := by
  rw [acc0_even V c t h, accStep_eq, accZero_eq]

/-- at an odd point the product of its two blocks added to what the point before left, -/
theorem acc0_odd_pay (c : Dev nD) (t : Fin cfg0.N) (h : t.val % 2 = 1) :
    acc0 V c t = k0_pay2 (acc0 V c ⟨t.val - 1, Nat.lt_of_le_of_lt (Nat.sub_le _ _) t.isLt⟩) (iblk0 V c 0 t) (iblk0 V c 1 t) := by
  rw [acc0_odd V c t h, accStep_eq]

/-- that is, both contraction steps of the row block spelt out. -/
theorem acc0_odd_pay2 (c : Dev nD) (t : Fin cfg0.N) (h : t.val % 2 = 1) :
    acc0 V c t = k0_pay2 (k0_pay2 k0_pay1 (iblk0 V c 0 ⟨t.val - 1, Nat.lt_of_le_of_lt (Nat.sub_le _ _) t.isLt⟩)
        (iblk0 V c 1 ⟨t.val - 1, Nat.lt_of_le_of_lt (Nat.sub_le _ _) t.isLt⟩)) (iblk0 V c 0 t) (iblk0 V c 1 t) := by
  rw [acc0_odd_pay V c t h, acc0_even_pay V c ⟨t.val - 1, Nat.lt_of_le_of_lt (Nat.sub_le _ _) t.isLt⟩ (by dsimp only; omega)]

/-! ## The region invariant -/

/-- The accumulator: a whole scoped buffer of the body's own, passed beside the windows. -/
abbrev scM : Memref sig .tc .vmem S512x128 .f32 := Memref.whole cc0_scratch0

/-- The core's other scoped buffers that no window of this call stages (the second call's five staging buffers),
    each whole at some contents: the body never touches them. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The accumulator's part of the invariant before position `n`: before the first point the buffer at anything,
    afterwards at what the point before left in it. -/
def scrAt (c : Dev nD) : (n : ℕ) → n ≤ cfg0.N → sProp 𝕄
  | 0, _ => iprop(∃ d, owns (c : Thread nD τ) scM fullShare d)
  | n + 1, hn => owns (c : Thread nD τ) scM fullShare (accAt V c n hn)

theorem scrAt_zero (c : Dev nD) (n : ℕ) (h : n ≤ cfg0.N) (hz : n = 0) :
    scrAt V c n h = iprop(∃ d, owns (c : Thread nD τ) scM fullShare d) := by
  subst hz; rfl

theorem scrAt_succ (c : Dev nD) (n : ℕ) (hn : n < cfg0.N) :
    scrAt V c (n + 1) hn = owns (c : Thread nD τ) scM fullShare (accAt V c n hn) := rfl

theorem scrAt_pos (c : Dev nD) (n : ℕ) (h : n ≤ cfg0.N) (hz : n ≠ 0) :
    scrAt V c n h = owns (c : Thread nD τ) scM fullShare (accAt V c (n - 1) (by omega)) := by
  cases n with
  | zero => exact absurd rfl hz
  | succ n => rfl

/-- Whatever the position, the accumulator is held at some contents. -/
theorem scrAt_some (c : Dev nD) (n : ℕ) (h : n ≤ cfg0.N) :
    scrAt V c n h ⊢ iprop(∃ d, owns (c : Thread nD τ) scM fullShare d) := by
  cases n with
  | zero => exact Idealize.SL.BI.Entails.refl _
  | succ n => rw [scrAt_succ]; iintro H; iexists _; iexact H

/-! ## The proof data -/

/-- The proof data of the first call on core `c`: the arrays as the region finds them; after the body at point
    `t` each input's buffer at its block, the output's at the accumulator after `t` plus the bias row, clamped at
    zero (the formula also at the even points, where the window is idle and the field is not consulted); the
    invariant: the accumulator as `scrAt` says, the other scoped buffers at anything, the generator register at some
    state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (acc0 V c t) (iblk0 V c 2 t)
  Φ t := iprop(scrAt V c t.val (Nat.le_of_lt_succ t.isLt) ∗ rest5 c ∗ ∃ r, prngReg c r)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (acc0 V c t) (iblk0 V c 2 t) := by dsimp only [dat0]
/-- In particular at the odd points, the ones that write the output's block back. -/
theorem after0_3_odd (c : Dev nD) (t : Fin cfg0.N) (h : t.val % 2 = 1) :
    (dat0 V c).after 3 t = out0_3 (acc0 V c t) (iblk0 V c 2 t) := after0_3 V c t

/-- The same in the payloads alone. -/
theorem after0_3_odd_pay (c : Dev nD) (t : Fin cfg0.N) (h : t.val % 2 = 1) :
    (dat0 V c).after 3 t = k0_pay3 (acc0 V c t) (iblk0 V c 2 t) := by
  rw [after0_3 V c t, out0_3_eq]

/-- The invariant at a point's start and end, restated at the point's position. -/
theorem Phi_castSucc (c : Dev nD) (t : Fin cfg0.N) :
    (dat0 V c).Φ t.castSucc = iprop(scrAt V c t.val (Nat.le_of_lt t.isLt) ∗ rest5 c ∗ ∃ r, prngReg c r) := by
  dsimp only [dat0]; simp only [Fin.coe_castSucc]
theorem Phi_succ (c : Dev nD) (t : Fin cfg0.N) :
    (dat0 V c).Φ t.succ = iprop(scrAt V c (t.val + 1) t.isLt ∗ rest5 c ∗ ∃ r, prngReg c r) := rfl

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point. The inputs' buffers hold their blocks. At an even point the first condition holds and the
    second fails: the body zeroes the accumulator (held at anything, or at what the point before left), adds the
    product, and hands the output's buffer back untouched — the window is idle there and not written back. At an odd
    point the first fails and the second holds: the accumulator is held at what the point before left, the body adds
    the product and stores the clamped sum with the bias row into the output's buffer. The other scoped buffers, the
    generator register and the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi_succ, Phi_castSucc, scrAt_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h : t.val % 2 = 0
  · rw [Dat.leavesExact_idle (dat0 V c) 3 t (idleAt0_3 t h) (noFlush0_3 t h), accAt_even V c t h]
    iintro ⟨⟨HS, Hrest⟩, Ho, ⟨%d0, H0⟩, ⟨%d1, H1⟩, ⟨%d2, H2⟩, ⟨%d3, H3⟩⟩
    ihave HS' := (scrAt_some V c t.val (Nat.le_of_lt t.isLt)) $$ HS
    iapply (runA c Set.univ (grid0.coords t) _ _ _ _ _ _ _ _ _ _ ((hcond0_0 t).mpr h)
      (fun hh => absurd ((hcond0_1 t).mp hh) (by omega)) (iblk0 V c 0 t) (iblk0 V c 1 t) (iblk0 V c 2 t)
      ((dat0 V c).before 3 t d3) _)
    isplitl [H0]; · iexact H0
    isplitl [H1]; · iexact H1
    isplitl [H2]; · iexact H2
    isplitl [H3]; · iexact H3
    isplitl [HS']; · iexact HS'
    iintro ⟨H0, H1, H2, H3, HS⟩
    isplitl [HS Hrest]
    · isplitl [HS]; · iexact HS
      iexact Hrest
    isplitl [Ho]; · iexact Ho
    isplitl [H0]; · iexact H0
    isplitl [H1]; · iexact H1
    isplitl [H2]; · iexact H2
    iexists d3; iexact H3
  · have h1 : t.val % 2 = 1 := by omega
    have hz : t.val ≠ 0 := by omega
    rw [show (dat0 V c).leavesExact 3 t = owns (c : Thread nD τ) (st0_3 t) fullShare ((dat0 V c).after 3 t) from by
      unfold Dat.leavesExact; rw [liveAt0_3 t h1], after0_3]
    unfold acc0
    rw [accAt_odd V c t h1, scrAt_pos V c _ _ hz]
    iintro ⟨⟨HS, Hrest⟩, Ho, ⟨%d0, H0⟩, ⟨%d1, H1⟩, ⟨%d2, H2⟩, ⟨%d3, H3⟩⟩
    iapply (runB c Set.univ (grid0.coords t) _ _ _ _ _ _ _ _ _ _ (fun hh => h ((hcond0_0 t).mp hh))
      ((hcond0_1 t).mpr h1) (iblk0 V c 0 t) (iblk0 V c 1 t) (iblk0 V c 2 t)
      (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest]
    · isplitl [HS]; · iexact HS
      iexact Hrest
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- Before the first point the invariant is made of the generator register at some state and the core's scoped
    buffers that no window stages, each at some contents (anything else handed along is dropped). -/
theorem Φ0_in (c : Dev nD) {P : sProp 𝕄} :
    iprop((∃ r, prngReg c r) ∗ P ∗ Pipeline.scopedRest (Ix := Unit) (Name := ℕ) (U := UR sig nD τ) (Lvl := ℕ) (Val := Elt F) spec0 c)
      ⊢ (dat0 V c).Φ 0 := by
  rw [show (dat0 V c).Φ 0 = iprop(scrAt V c 0 (Nat.zero_le _) ∗ rest5 c ∗ ∃ r, prngReg c r) from rfl,
    scrAt_zero V c 0 _ rfl, scopedRest0_eq]
  unfold rest5; simp only [owns_whole]
  iintro ⟨Hp, -, Hs, Hr⟩
  isplitl [Hs]; · iexact Hs
  isplitl [Hr]; · iexact Hr
  iexact Hp

/-- After the last point it gives them back: the accumulator's named contents are forgotten. -/
theorem Φ0_out (c : Dev nD) :
    (dat0 V c).Φ (Fin.last cfg0.N)
      ⊢ iprop((∃ r, prngReg c r) ∗ Pipeline.ownSems0 (Ix := Unit) (Name := ℕ) (U := UR sig nD τ) (Lvl := ℕ) (Val := Elt F) (fun k : PEmpty => k.elim) c
          ∗ Pipeline.scopedRest (Ix := Unit) (Name := ℕ) (U := UR sig nD τ) (Lvl := ℕ) (Val := Elt F) spec0 c) := by
  rw [Pipeline.ownSems0_none,
    show (dat0 V c).Φ (Fin.last cfg0.N) = iprop(scrAt V c (Fin.last cfg0.N).val (Nat.le_of_lt_succ (Fin.last cfg0.N).isLt) ∗ rest5 c ∗ ∃ r, prngReg c r) from rfl,
    scrAt_pos V c _ _ (by rw [Fin.val_last]; have : cfg0.N = 16 := N_0; omega), scopedRest0_eq]
  unfold rest5; simp only [owns_whole]
  iintro ⟨Hs, Hr, Hp⟩
  isplitl [Hp]; · iexact Hp
  isplitr; · iempintro
  isplitl [Hs]; · iexists _; iexact Hs
  iexact Hr

end Region0

end Cert.ReferenceIdeal.Hand
end
-- ==== Proof.RiRegion1.lean ====
import proofs.«135639_g2000505199253694_pallasbulk_90_2_alg».proof.Proof.Gen.ReferenceIdeal.Launch
import proofs.«135639_g2000505199253694_pallasbulk_90_2_alg».proof.Proof.Gen.ReferenceIdeal.Skeleton
import proofs.«135639_g2000505199253694_pallasbulk_90_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (pipeline 1): the Gram block kernel

Window 0 is a 512×128 row block of the activations, window 1 the whole 4096×128 activations, window 2 the
512×1024 output block. -/

/-! ## The body's accesses -/

/-- The 1024 rows of the whole activations that the point's column block reads, from the row offset `k1_off1 i`
    (`1024 · i 1`, by `k1_off1_eq`). -/
abbrev rRows (i : grid1.Coords) : Rect S4096x128 := Rect.unit (s := S4096x128) (k1_off1 i) S1024x128.size (k1_off1_inb i)
/-- The whole row block. -/
abbrev rBlk : Rect S512x128 := Rect.unit (s := S512x128) ![0, 0] S512x128.size inb_S512x128_S512x128_0_0
/-- The whole output block. -/
abbrev rOut : Rect S512x1024 := Rect.unit (s := S512x1024) ![0, 0] S512x1024.size inb_S512x1024_S512x1024_0_0

/-! ## What the body leaves in the output window's buffer -/

/-- The output buffer after the body at coordinates `i`, from the row block `x0` and the whole activations `x1`:
    the one store, over the whole buffer, of the payload `k1_pay1` of the 1024 rows of `x1` the column coordinate selects and of the row block `x0`. -/
def out1_2 (i : grid1.Coords) (x0 : Vec F S512x128 .f32) (x1 : Vec F S4096x128 .f32) : Vec F S512x1024 .f32 :=
  View.canon [⟨rOut, k1_pay1 (View.ld x1 (rRows i)) (View.ld x0 rBlk)⟩]

/-- The one store covers the buffer. -/
theorem cover1_2 (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

/-! ## The body's triple -/

set_option maxHeartbeats 1000000 in
/-- The body on whole buffers, the inputs' at `x0`, `x1` and the output's at anything, runs to the continuation with the
    inputs unchanged and the output at `out1_2 i x0 x1`. -/
theorem sound_kernel1 (c : Dev nD) (E : Set ℕ) (i : grid1.Coords)
    (arg0 : Memref sig .tc .vmem S512x128 .f32) (harg0 : arg0.IsWhole)
    (arg1 : Memref sig .tc .vmem S4096x128 .f32) (harg1 : arg1.IsWhole)
    (arg2 : Memref sig .tc .vmem S512x1024 .f32) (harg2 : arg2.IsWhole)
    (x0 : Vec F S512x128 .f32) (x1 : Vec F S4096x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 i x0 x1)) -∗ K ⟨⟩))
      ⊢ wp frame (wpE (defs₀ (F := F)) Variants.none c none) E (cc1__gram_kernel i arg0 harg0 arg1 harg1 arg2 harg2) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section Region

-- the core's buffer contents when the pipeline is entered
variable (V : (c : Dev nD) → (b : Ref sig .tc) → Buf (Elt F) ((c : Thread nD τ).loc b))

/-! ## The windows' blocks -/

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's buffer holds its block at every point: it is fetched when the row index moves (every fourth
    point) and in between the index, hence the block, is the same. For any proof data over the entry contents whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-array window's buffer holds the whole array at every point: fetched once, at the first point, and its
    (constant) index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data on core `c`: the arrays as entered; after the body at point `t` each input's buffer at its block and
    the output's at `out1_2` of the point's coordinates and the two input blocks; the invariant the scoped rest and the
    generator register, untouched; nothing owed. The two input windows read ONE array: each holds half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem q1_0 (c : Dev nD) : (dat1 V c).q 0 = fullShare.left := by dsimp only [dat1]
theorem q1_1 (c : Dev nD) : (dat1 V c).q 1 = fullShare.right := by dsimp only [dat1]

theorem share1_0 (c : Dev nD) : (dat1 V c).share 0 = fullShare.left := by unfold Dat.share; rw [if_neg (by decide), q1_0]
theorem share1_1 (c : Dev nD) : (dat1 V c).share 1 = fullShare.right := by unfold Dat.share; rw [if_neg (by decide), q1_1]
theorem share1_2 (c : Dev nD) : (dat1 V c).share 2 = fullShare := by unfold Dat.share; rw [if_pos (by decide)]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies at the point's
    coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region

/-! ## The shared array: entering and leaving the pipeline

The two input windows read the one array `main_v8`; the output window writes `main_v9`. At entry the core's full
ownership of `main_v8` is cut into two halves, one per input window; at exit the halves, both still at the entry
contents (an input array is never written), are joined again. -/

section Shared

-- the core's buffer contents when the pipeline is entered
variable (V : (c : Dev nD) → (b : Ref sig .tc) → Buf (Elt F) ((c : Thread nD τ).loc b))

/-- The windows' arrays are the two buffers `main_v8` and `main_v9`. -/
theorem arrImage1 : (Finset.univ.image (Pipeline.arrRef spec1) : Finset (Ref sig .tc)) = {main_v8, main_v9} := by decide

/-- A core's unscoped buffers: `main_v8`, `main_v9` and the rest. -/
theorem unscopedBufs_split1 (c : Dev nD) (X : (b : Ref sig .tc) → Buf (Elt F) ((c : Thread nD τ).loc b)) :
    (unscopedBufs c X : sProp 𝕄)
      = iprop((((c : Thread nD τ).loc main_v8) ↦{fullShare} X main_v8) ∗ (((c : Thread nD τ).loc main_v9) ↦{fullShare} X main_v9)
          ∗ Pipeline.unscopedRest spec1 c X) := by
  classical
  have hA : ({main_v8, main_v9} : Finset (Ref sig .tc)) ⊆ Finset.univ.filter fun b : Ref sig .tc => ¬ b.isScoped := by decide
  unfold unscopedBufs Pipeline.unscopedRest
  rw [arrImage1, bigSep_sdiff_split hA, BI.bigSep_insert (by decide), BI.bigSep_singleton]
  exact BI.equiv_iff.mp ⟨BI.sep_assoc, BI.sep_assoc'⟩

end Shared

section Shared2

-- the core's buffer contents when the pipeline is entered
variable (V : (c : Dev nD) → (b : Ref sig .tc) → Buf (Elt F) ((c : Thread nD τ).loc b))

/-- The pipeline's arrays, window by window: `main_v8` at the left half for the row-block window, `main_v8` at the right
    half for the whole-array window, `main_v9` outright for the output window. -/
theorem arrays1_eq (c : Dev nD) (A : (w : Fin cfg1.W) → Buf (Elt F) ((cfg1.win w).arr.view.loc (c : Thread nD τ))) :
    ((dat1 V c).arrays A : sProp 𝕄)
      = iprop((((c : Thread nD τ).loc main_v8) ↦{fullShare.left} A 0) ∗ (((c : Thread nD τ).loc main_v8) ↦{fullShare.right} A 1)
          ∗ (((c : Thread nD τ).loc main_v9) ↦{fullShare} A 2)) := by
  unfold Dat.arrays
  rw [bigSep_W1, share1_0, share1_1, share1_2, (arr_whole1 0).set_eq_univ, (arr_whole1 2).set_eq_univ]

/-- ENTRY: the core's unscoped buffers at `V c` are the pipeline's arrays at the entry contents (the ownership of
    `main_v8` cut in two) and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [unscopedBufs_split1, arrays1_eq,
    show (dat1 V c).arrAt 0 0 = V c main_v8 from A_eq1 V c 0,
    show (dat1 V c).arrAt 1 0 = V c main_v8 from A_eq1 V c 1,
    show (dat1 V c).arrAt 2 0 = V c main_v9 from A_eq1 V c 2]
  iintro ⟨H8, H9, Hrest⟩
  ihave H8 := (pointsTo_share (PosShare.mem_left_op_right fullShare)).1 $$ H8
  icases H8 with ⟨H8l, H8r⟩
  isplitr [Hrest]
  · isplitl [H8l]; · iexact H8l
    isplitl [H8r]; · iexact H8r
    iexact H9
  iexact Hrest

/-- EXIT: the pipeline's arrays at their final contents (both halves of `main_v8` still at the entry contents, `main_v9`
    at what the write-backs leave) and the unscoped rest are the core's unscoped buffers at any contents `X` that has
    `main_v8` as entered, `main_v9` at the write-backs' result and every other buffer as entered. -/
theorem unscopedBufs_of_arrays1 (c : Dev nD) (X : (b : Ref sig .tc) → Buf (Elt F) ((c : Thread nD τ).loc b))
    (h8 : X main_v8 = V c main_v8) (h9 : X main_v9 = (dat1 V c).arrAt 2 cfg1.N)
    (hrest : ∀ b, b ∉ Finset.univ.image (Pipeline.arrRef spec1) → X b = V c b) :
    iprop((dat1 V c).arrays ((dat1 V c).arrAt · cfg1.N) ∗ Pipeline.unscopedRest spec1 c (V c))
      ⊢ (unscopedBufs c X : sProp 𝕄) := by
  rw [unscopedBufs_split1, arrays1_eq,
    show (dat1 V c).arrAt 0 cfg1.N = V c main_v8 from ((dat1 V c).arrAt_in 0 rfl _).trans (A_eq1 V c 0),
    show (dat1 V c).arrAt 1 cfg1.N = V c main_v8 from ((dat1 V c).arrAt_in 1 rfl _).trans (A_eq1 V c 1),
    h8, h9,
    show Pipeline.unscopedRest spec1 c X = (Pipeline.unscopedRest spec1 c (V c) : sProp 𝕄) from by
      unfold Pipeline.unscopedRest
      exact BI.bigSep_congr fun b hb => by rw [hrest b (Finset.mem_sdiff.mp hb).2]]
  iintro ⟨⟨H8l, H8r, H9⟩, Hrest⟩
  isplitl [H8l H8r]
  · iapply (pointsTo_share (PosShare.mem_left_op_right fullShare)).2
    isplitl [H8l]; · iexact H8l
    iexact H8r
  isplitl [H9]; · iexact H9
  iexact Hrest

end Shared2

end Cert.ReferenceIdeal.Hand

end
-- ==== Proof.RiRun.lean ====
import proofs.«135639_g2000505199253694_pallasbulk_90_2_alg».proof.Proof.RiRegion0
import proofs.«135639_g2000505199253694_pallasbulk_90_2_alg».proof.Proof.RiRegion1

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: one stretch of host operations, then the two pipelines

## The buffer contents at each boundary -/

/-- Core `c`'s buffers at launch. -/
abbrev W0 : Dev nD → Valuation τ sig (Elt F) := fun c b => (s₀ m ρ).mem ((c : Dev nD), b)
/-- After the host operations (the first pipeline's entry). -/
abbrev W1 : Dev nD → Valuation τ sig (Elt F) := fun c => StableHlo.after hostOps0 (W0 m ρ c)
theorem W1_eq (c : Dev nD) : W1 m ρ c = StableHlo.after hostOps0 (W0 m ρ c) := rfl
/-- The same at the TensorCore's references. -/
abbrev V1 : (c : Dev nD) → (b : Ref sig .tc) → Buf (Elt F) ((c : Thread nD τ).loc b) := fun c b => W1 m ρ c b
/-- At the first pipeline's exit: its arrays at what it leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The first pipeline's output array holds what its write-backs leave. -/
theorem W2_main_v8 (c : Dev nD) : W2 m ρ c (Proc.devRef .tc main_v8) = (dat0 (V1 m ρ) c).arrAt 3 cfg0.N :=
  W2_arr m ρ c 3

/-- No host operation runs between the two pipelines: the second is entered from what the first leaves. -/
abbrev W3 : Dev nD → Valuation τ sig (Elt F) := W2 m ρ
abbrev V3 : (c : Dev nD) → (b : Ref sig .tc) → Buf (Elt F) ((c : Thread nD τ).loc b) := fun c b => W3 m ρ c b
theorem V3_main_v8 (c : Dev nD) : V3 m ρ c main_v8 = W2 m ρ c (Proc.devRef .tc main_v8) := rfl

/-- At the second pipeline's exit: its output array `main_v9` at what its write-backs leave; every other buffer as
    entered (its two input windows read the one array `main_v8`, which is never written). -/
def W4 (c : Dev nD) : Valuation τ sig (Elt F) :=
  Function.update (W3 m ρ c) (Proc.devRef .tc main_v9) ((dat1 (V3 m ρ) c).arrAt 2 cfg1.N)
theorem W4_main_v9 (c : Dev nD) : W4 m ρ c (Proc.devRef .tc main_v9) = (dat1 (V3 m ρ) c).arrAt 2 cfg1.N := by
  unfold W4; exact Function.update_self _ _ _
theorem W4_of_ne (c : Dev nD) (b : Ref sig .tc) (hb : b ≠ main_v9) :
    W4 m ρ c (Proc.devRef .tc b) = W3 m ρ c (Proc.devRef .tc b) := by
  unfold W4; exact Function.update_of_ne (fun e => hb (Proc.devRef_injective _ e)) _ _
abbrev V4 : (c : Dev nD) → (b : Ref sig .tc) → Buf (Elt F) ((c : Thread nD τ).loc b) := fun c b => W4 m ρ c b

/-! ### The arguments end as launched -/

/-- `main_arg0` is written by no host operation and is no window's array of either pipeline: it ends as launched. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` is the first pipeline's first input array: never written, and written by no host operation. -/
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` is written by no host operation and is no window's array of either pipeline: it ends as launched. -/
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is written by no host operation and is no window's array of either pipeline: it ends as launched. -/
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The pipelines as segments -/

set_option backward.isDefEq.respectTransparency.types false in
/-- The first pipeline: entered from every unscoped buffer at `W1`, left at `W2`. Its arrays (distinct buffers) are split
    out of the unscoped buffers and put back at the exit contents; the generator register, with the scratch accumulator
    among the scoped rest, goes into the invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Φ0_in (V1 m ρ) c
  hout c := Φ0_out (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline: entered from every unscoped buffer at `W3`, left at `W4`. Its two input windows read the one
    array `main_v8`, whose ownership is cut in two at entry and joined again at exit; the output array `main_v9` is held
    outright and ends at what the write-backs leave. The generator register goes into the invariant and comes back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) :=
      unscopedBufs_of_arrays1 (V3 m ρ) c (V4 m ρ c) (W4_of_ne m ρ c main_v8 (by decide)) (W4_main_v9 m ρ c)
        (fun b hb => W4_of_ne m ρ c b (by rintro rfl; exact hb (by decide)))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments: the host operations, then the two pipelines. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN: from any memory with zero counters, every weakly fair execution on the TensorCores terminates, nothing
    faulting, and in every final state every unscoped buffer of every core holds the last boundary's contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.ReferenceIdeal.Hand

end
-- ==== Proof.RvGram.lean ====
/-
  The second pallas_call of the reference, read as a value: the Gram matrix of the 128-column hidden layer.

  Grid point t = 4·i + j stages the 512-row block i of the hidden layer H and, through a second window on the same
  array, the whole of H; the body takes the 1024 rows of H from row 1024·j on and stores into block (i, j) of the
  result the product of the row block with the transpose of those rows. Read at an index that is
  ∑ k, H (r, k) * H (c, k)  with r the block's row and c its column, so every block of the result is a block of ONE
  function of H, and the 8 × 4 blocks tile the 4096 × 4096 result.
-/
import proofs.«135639_g2000505199253694_pallasbulk_90_2_alg».proof.Proof.RiRegion1
import proofs.«135639_g2000505199253694_pallasbulk_90_2_alg».proof.Proof.LibGramDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RVal

open Cert.ReferenceIdeal Cert.ReferenceIdeal.Gen Cert.ReferenceIdeal.Hand
open Idealize.ShloMosaic Idealize.ShloMosaic.ValueIdx Idealize.ShloMosaic.TcCoe
open Idealize.ShloMosaic.Pipeline (Dat)

/-- The Gram matrix of a 4096 × 128 array, index by index. -/
def gramOf (H : S4096x128.Idx → EReal) : S4096x4096.Idx → EReal := fun i =>
  ∑ k : Fin 128, H (ix2 (i 0) k) * H (ix2 (i 1) k)

/-- The body's stored value at (p, q): the product with a transpose into the zero accumulator is a plain sum of
    row-times-row products at the ideal values. -/
theorem gram_pay (v3 : Vec Ideal S1024x128 .f32) (v5 : Vec Ideal S512x128 .f32) (p : Fin 512) (q : Fin 1024) :
    k1_pay1 (F := Ideal) v3 v5 (ix2 p q) = ∑ k : Fin 128, v5 (ix2 p k) * v3 (ix2 q k) := by
  unfold k1_pay1
  simp only [shapeCast_self]
  rw [show dot_S512x128_S1024x128_S512x1024_1_1_0_0_n_n = DotDims.transposedRhs 512 128 1024 from rfl]
  rw [GramDot.matmulZero_apply]

/-- A block of the Gram matrix: if row p of `x0` is H's row r and row q of `xr` is H's row c, the stored value at
    (p, q) is the Gram matrix at (r, c). -/
theorem gram_block (H : S4096x128.Idx → EReal) (xr : Vec Ideal S1024x128 .f32) (x0 : Vec Ideal S512x128 .f32)
    (r c : Fin 4096) (p : Fin 512) (q : Fin 1024)
    (h0 : ∀ k : Fin 128, x0 (ix2 p k) = H (ix2 r k)) (h1 : ∀ k : Fin 128, xr (ix2 q k) = H (ix2 c k)) :
    k1_pay1 (F := Ideal) xr x0 (ix2 p q) = gramOf H (ix2 r c) := by
  rw [gram_pay]
  simp only [h0, h1]
  rfl

variable (V : (c : Dev nD) → (b : Ref sig .tc) → Buf (Elt Ideal) ((c : Thread nD τ).loc b))

/-- The printed index maps and the body's row offset over the grid: point t is row block t / 4 and column block
    t % 4; the whole-array window never moves; the body's rows start at 1024 · (t % 4). -/
theorem idx_facts1 : ∀ t : Fin cfg1.N, win1_0.index t (0 : Fin 2) = t.val / 4 ∧ win1_0.index t (1 : Fin 2) = 0
    ∧ win1_1.index t (0 : Fin 2) = 0 ∧ win1_1.index t (1 : Fin 2) = 0
    ∧ win1_2.index t (0 : Fin 2) = t.val / 4 ∧ win1_2.index t (1 : Fin 2) = t.val % 4
    ∧ k1_off1 (grid1.coords t) (0 : Fin 2) = 1024 * (t.val % 4) ∧ k1_off1 (grid1.coords t) (1 : Fin 2) = 0 :=
  (by decide +kernel : ∀ t : Fin grid1.N, _)

theorem hz1 : (![0, 0] : Fin 2 → Nat) = fun _ => 0 := funext fun a => by fin_cases a <;> rfl

/-- Row block t / 4 of H read at (p, k) is H at row 512·(t / 4) + p. -/
theorem blk_S (c : Dev nD) (t : Fin cfg1.N) (p : Fin 512) (k : Fin 128) (r : Fin 4096) (hr : r.val = 512 * (t.val / 4) + p.val) :
    iblk1 V c 0 t (ix2 p k) = V c main_v8 (ix2 r k) := by
  show V c main_v8 (((cfg1.win 0).blk t).view.emb (ix2 p k)) = _
  refine congrArg _ (funext fun a => Fin.ext ?_)
  obtain ⟨e0, e1, -⟩ := idx_facts1 t
  match a with
  | ⟨0, _⟩ => show win1_0.index t (0 : Fin 2) * 512 + 1 * p.val = r.val; omega
  | ⟨1, _⟩ => show win1_0.index t (1 : Fin 2) * 128 + 1 * k.val = k.val; omega

/-- The rows the body takes from the whole-array window at point t, read at (q, k): H at row 1024·(t % 4) + q. -/
theorem blk_R (c : Dev nD) (t : Fin cfg1.N) (q : Fin 1024) (k : Fin 128) (cc : Fin 4096) (hc : cc.val = 1024 * (t.val % 4) + q.val) :
    View.ld (iblk1 V c 1 t) (rRows (grid1.coords t)) (ix2 q k) = V c main_v8 (ix2 cc k) := by
  show V c main_v8 (((cfg1.win 1).blk t).view.emb ((rRows (grid1.coords t)).emb (ix2 q k))) = _
  refine congrArg _ (funext fun a => Fin.ext ?_)
  obtain ⟨-, -, e2, e3, -, -, e6, e7⟩ := idx_facts1 t
  match a with
  | ⟨0, _⟩ => show win1_1.index t (0 : Fin 2) * 4096 + 1 * (k1_off1 (grid1.coords t) (0 : Fin 2) + 1 * q.val) = cc.val; omega
  | ⟨1, _⟩ => show win1_1.index t (1 : Fin 2) * 128 + 1 * (k1_off1 (grid1.coords t) (1 : Fin 2) + 1 * k.val) = k.val; omega

/-- WHAT POINT t WRITES BACK is block (t / 4, t % 4) of the Gram matrix of H as the call finds it. -/
theorem gram_flushed (c : Dev nD) (t : Fin cfg1.N) :
    (dat1 V c).flushed 2 t = ((cfg1.win 2).blk t).view.read (Elt Ideal) (gramOf (V c main_v8)) := by
  show (cfg1.win 2).cut (grid1.coords t) ((dat1 V c).after 2 t) = _
  rw [after1_2]
  unfold out1_2
  rw [View.canon_unit_zero hz1]
  simp only [View.ld_unit_zero (S := S512x128) hz1]
  have ht : t.val < 32 := by have h1 : t.val < cfg1.N := t.isLt; have h8 : cfg1.N = 32 := N_1; omega
  obtain ⟨-, -, -, -, e4, e5, -, -⟩ := idx_facts1 t
  funext y
  have hy0 : (y 0).val < 512 := (y 0).isLt
  have hy1 : (y 1).val < 1024 := (y 1).isLt
  have key := gram_block (V c main_v8) (View.ld (iblk1 V c 1 t) (rRows (grid1.coords t))) (iblk1 V c 0 t)
    ⟨512 * (t.val / 4) + (y 0).val, by omega⟩ ⟨1024 * (t.val % 4) + (y 1).val, by omega⟩ (y 0) (y 1)
    (fun k => blk_S V c t (y 0) k _ rfl) (fun k => blk_R V c t (y 1) k _ rfl)
  show k1_pay1 (F := Ideal) (View.ld (iblk1 V c 1 t) (rRows (grid1.coords t))) (iblk1 V c 0 t) y
    = gramOf (V c main_v8) (((cfg1.win 2).blk t).view.emb y)
  refine (congrArg (k1_pay1 (F := Ideal) (View.ld (iblk1 V c 1 t) (rRows (grid1.coords t))) (iblk1 V c 0 t))
    (eq_ix2 (n0 := 512) (n1 := 1024) y)).trans (key.trans (congrArg _ (funext fun a => Fin.ext ?_)))
  match a with
  | ⟨0, _⟩ => show 512 * (t.val / 4) + (y 0).val = win1_2.index t (0 : Fin 2) * 512 + 1 * (y 0).val; omega
  | ⟨1, _⟩ => show 1024 * (t.val % 4) + (y 1).val = win1_2.index t (1 : Fin 2) * 1024 + 1 * (y 1).val; omega

/-- An index of the result is in point t's block iff each coordinate is in the block's range on its axis. -/
theorem mem_gblock (t : Fin cfg1.N) (i : S4096x4096.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v9).slice (win1_2.rect t)).set ↔ _
  rw [View.set_slice_whole, Rect.mem_set_unit]
  exact Iff.rfl

/-- The 8 × 4 blocks tile the result: (r, c) lies in the block of point 4·(r / 512) + c / 1024. -/
theorem gram_cover (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have h8 : cfg1.N = 32 := N_1
  let t : Fin cfg1.N := ⟨4 * ((i 0).val / 512) + (i 1).val / 1024, by omega⟩
  refine ⟨t, flush1_2 t, ?_⟩
  rw [mem_gblock]
  obtain ⟨-, -, -, -, e4, e5, -, -⟩ := idx_facts1 t
  have tv : t.val = 4 * ((i 0).val / 512) + (i 1).val / 1024 := rfl
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- THE RESULT ARRAY after the second call is the Gram matrix of the hidden layer as the call finds it. -/
theorem gram_final (c : Dev nD) : (dat1 V c).arrAt 2 cfg1.N = gramOf (V c main_v8) :=
  (dat1 V c).arrAt_eq_of_cover 2 _ (fun t _ => gram_flushed V c t) gram_cover

end Cert.ReferenceIdeal.RVal

end
-- ==== Proof.RvHidden.lean ====
/-
  The first pallas_call of the reference, read as a value: the 128-column hidden layer.

  Grid point t = 2·i + k stages block (i, k) of the 4096 × 4096 matrix A (512 rows, 2048 columns), the 2048-row
  slab k of the 4096 × 128 matrix S, and the bias row. At k = 0 the body zeroes a 512 × 128 accumulator and adds the
  product of the block with the slab; at k = 1 it adds the second product and stores into row block i of the result
  max (accumulator + bias, 0).  Read at an index the two products into zero accumulators are plain sums over the
  lower and the upper half of the long axis, and the zero start drops out, so row block i of the result is a block of
  ONE function of the three arrays: entry (r, j) is
  max ((∑ n, A (r, lo n) * S (lo n, j)) + (∑ n, A (r, hi n) * S (hi n, j)) + bias (0, j), 0).
  The eight row blocks tile the 4096 rows, so after the call the result array IS that function.
-/
import proofs.«135639_g2000505199253694_pallasbulk_90_2_alg».proof.Proof.RiRegion0
import proofs.«135639_g2000505199253694_pallasbulk_90_2_alg».proof.Proof.LibPlainDot
import proofs.«135639_g2000505199253694_pallasbulk_90_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RVal

open Cert.ReferenceIdeal Cert.ReferenceIdeal.Gen Cert.ReferenceIdeal.Hand
open Idealize.ShloMosaic Idealize.ShloMosaic.ValueIdx Idealize.ShloMosaic.TcCoe
open Idealize.ShloMosaic.Pipeline (Dat)
open Cert.Proof

/-- The hidden layer as one function of the three arrays, index by index: the long axis summed in two halves. -/
def hiddenR (A : S4096x4096.Idx → EReal) (S : S4096x128.Idx → EReal) (B : S1x128.Idx → EReal) : S4096x128.Idx → EReal := fun i =>
  max (((∑ n : Fin 2048, A (ix2 (i 0) (Spec.lo n)) * S (ix2 (Spec.lo n) (i 1))) + ∑ n : Fin 2048, A (ix2 (i 0) (Spec.hi n)) * S (ix2 (Spec.hi n) (i 1))) + B (ix2 (0 : Fin 1) (i 1))) 0

/-- The zero block, at any index: the real 0. -/
theorem hid_pay1 (j : S512x128.Idx) : k0_pay1 (F := Ideal) j = 0 := by
  unfold k0_pay1
  rw [shapeCast_self, broadcast_apply, Ideal.ofBits_def, Ideal.ofBits_zero_f32]

/-- One contraction step at (p, q): the accumulator's entry plus the plain sum of row-times-column products. -/
theorem hid_pay2 (v3 : Vec Ideal S512x128 .f32) (v4 : Vec Ideal S512x2048 .f32) (v5 : Vec Ideal S2048x128 .f32)
    (p : Fin 512) (q : Fin 128) :
    k0_pay2 (F := Ideal) v3 v4 v5 (ix2 p q) = v3 (ix2 p q) + ∑ n : Fin 2048, v4 (ix2 p n) * v5 (ix2 n q) := by
  unfold k0_pay2
  rw [shapeCast_self, addf_apply]
  rw [show dot_S512x2048_S2048x128_S512x128_1_0_0_1_n_n = DotDims.plain 512 2048 128 from rfl]
  rw [PlainDot.matmulZero_apply, shapeCast_self]

/-- The stored block at (p, q): the accumulator's entry plus the bias row's at column q, compared with the real 0. -/
theorem hid_pay3 (v15 : Vec Ideal S512x128 .f32) (v16 : Vec Ideal S1x128 .f32) (p : Fin 512) (q : Fin 128) :
    k0_pay3 (F := Ideal) v15 v16 (ix2 p q) = max (v15 (ix2 p q) + v16 (ix2 (0 : Fin 1) q)) 0 := by
  unfold k0_pay3
  rw [maximumf_apply, addf_apply, broadcast_apply]
  rw [shapeCast_self, broadcastTo_1b_ab_apply]
  rw [Ideal.ofBits_def, Ideal.ofBits_zero_f32]

/-- A row block of the hidden layer from its blocks: if row p of `a0` / `a1` is the lower / upper half of A's row r,
    the slabs `s0` / `s1` are the lower / upper half of S's rows at column q, and `b` is the bias row, the value stored
    at (p, q) after both contraction steps is the hidden layer at (r, q). -/
theorem hid_block (A : S4096x4096.Idx → EReal) (S : S4096x128.Idx → EReal) (B : S1x128.Idx → EReal)
    (a0 a1 : Vec Ideal S512x2048 .f32) (s0 s1 : Vec Ideal S2048x128 .f32) (b : Vec Ideal S1x128 .f32)
    (r : Fin 4096) (p : Fin 512) (q : Fin 128)
    (h0 : ∀ n : Fin 2048, a0 (ix2 p n) = A (ix2 r (Spec.lo n))) (h1 : ∀ n : Fin 2048, a1 (ix2 p n) = A (ix2 r (Spec.hi n)))
    (g0 : ∀ n : Fin 2048, s0 (ix2 n q) = S (ix2 (Spec.lo n) q)) (g1 : ∀ n : Fin 2048, s1 (ix2 n q) = S (ix2 (Spec.hi n) q))
    (hb : ∀ y, b y = B y) :
    k0_pay3 (F := Ideal) (k0_pay2 (k0_pay2 k0_pay1 a0 s0) a1 s1) b (ix2 p q) = hiddenR A S B (ix2 r q) := by
  rw [hid_pay3, hid_pay2, hid_pay2, hid_pay1, zero_add]
  simp only [h0, h1, g0, g1, hb]
  rfl

variable (V : (c : Dev nD) → (b : Ref sig .tc) → Buf (Elt Ideal) ((c : Thread nD τ).loc b))

/-- The printed index maps over the grid: point t is row block t / 2 and contraction block t % 2; A's window sits at
    (t / 2, t % 2), S's at (t % 2, 0), the bias row's never moves, the result's sits at (t / 2, 0). -/
theorem idx_facts0 : ∀ t : Fin cfg0.N, win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = 0 :=
  (by decide +kernel : ∀ t : Fin grid0.N, _)

/-- Block (t / 2, t % 2) of A read at (p, n) is A at row 512·(t / 2) + p, column 2048·(t % 2) + n. -/
theorem blk_A0 (c : Dev nD) (t : Fin cfg0.N) (p : Fin 512) (n : Fin 2048) (r col : Fin 4096)
    (hr : r.val = 512 * (t.val / 2) + p.val) (hc : col.val = 2048 * (t.val % 2) + n.val) :
    iblk0 V c 0 t (ix2 p n) = V c main_arg1 (ix2 r col) := by
  show V c main_arg1 (((cfg0.win 0).blk t).view.emb (ix2 p n)) = _
  refine congrArg _ (funext fun a => Fin.ext ?_)
  obtain ⟨e0, e1, -⟩ := idx_facts0 t
  match a with
  | ⟨0, _⟩ => show win0_0.index t (0 : Fin 2) * 512 + 1 * p.val = r.val; omega
  | ⟨1, _⟩ => show win0_0.index t (1 : Fin 2) * 2048 + 1 * n.val = col.val; omega

/-- Slab t % 2 of S read at (n, q) is S at row 2048·(t % 2) + n. -/
theorem blk_S0 (c : Dev nD) (t : Fin cfg0.N) (n : Fin 2048) (q : Fin 128) (row : Fin 4096)
    (hrow : row.val = 2048 * (t.val % 2) + n.val) :
    iblk0 V c 1 t (ix2 n q) = V c main_v6 (ix2 row q) := by
  show V c main_v6 (((cfg0.win 1).blk t).view.emb (ix2 n q)) = _
  refine congrArg _ (funext fun a => Fin.ext ?_)
  obtain ⟨-, -, e2, e3, -⟩ := idx_facts0 t
  match a with
  | ⟨0, _⟩ => show win0_1.index t (0 : Fin 2) * 2048 + 1 * n.val = row.val; omega
  | ⟨1, _⟩ => show win0_1.index t (1 : Fin 2) * 128 + 1 * q.val = q.val; omega

/-- The window on the bias row stages the whole row at every point. -/
theorem blk_B0 (c : Dev nD) (t : Fin cfg0.N) (y : S1x128.Idx) : iblk0 V c 2 t y = V c main_v7 y := by
  show V c main_v7 (((cfg0.win 2).blk t).view.emb y) = _
  refine congrArg _ (funext fun a => Fin.ext ?_)
  obtain ⟨-, -, -, -, e4, e5, -⟩ := idx_facts0 t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- WHAT AN ODD POINT t WRITES BACK is row block t / 2 of the hidden layer of the arrays as the call finds them: the
    accumulator holds the two half-sums of points t - 1 and t. -/
theorem hid_flushed (c : Dev nD) (t : Fin cfg0.N) (h : t.val % 2 = 1) :
    (dat0 V c).flushed 3 t = ((cfg0.win 3).blk t).view.read (Elt Ideal)
      (hiddenR (V c main_arg1) (V c main_v6) (V c main_v7)) := by
  show (cfg0.win 3).cut (grid0.coords t) ((dat0 V c).after 3 t) = _
  rw [after0_3_odd_pay V c t h, acc0_odd_pay2 V c t h]
  have ht : t.val < 16 := by have h1 : t.val < cfg0.N := t.isLt; have h8 : cfg0.N = 16 := N_0; omega
  obtain ⟨-, -, -, -, -, -, e6, e7⟩ := idx_facts0 t
  have hlo : ∀ n : Fin 2048, (Spec.lo n).val = n.val := fun _ => rfl
  have hhi : ∀ n : Fin 2048, (Spec.hi n).val = 2048 + n.val := fun _ => rfl
  funext y
  have hy0 : (y 0).val < 512 := (y 0).isLt
  have key := hid_block (V c main_arg1) (V c main_v6) (V c main_v7)
    (iblk0 V c 0 ⟨t.val - 1, Nat.lt_of_le_of_lt (Nat.sub_le _ _) t.isLt⟩) (iblk0 V c 0 t)
    (iblk0 V c 1 ⟨t.val - 1, Nat.lt_of_le_of_lt (Nat.sub_le _ _) t.isLt⟩) (iblk0 V c 1 t) (iblk0 V c 2 t)
    ⟨512 * (t.val / 2) + (y 0).val, by omega⟩ (y 0) (y 1)
    (fun n => blk_A0 V c _ (y 0) n _ _ (by dsimp only; omega) (by rw [hlo]; dsimp only; omega))
    (fun n => blk_A0 V c t (y 0) n _ _ (by dsimp only) (by rw [hhi]; omega))
    (fun n => blk_S0 V c _ n (y 1) _ (by rw [hlo]; dsimp only; omega))
    (fun n => blk_S0 V c t n (y 1) _ (by rw [hhi]; omega))
    (blk_B0 V c t)
  show k0_pay3 (F := Ideal) (k0_pay2 (k0_pay2 k0_pay1 (iblk0 V c 0 ⟨t.val - 1, Nat.lt_of_le_of_lt (Nat.sub_le _ _) t.isLt⟩)
        (iblk0 V c 1 ⟨t.val - 1, Nat.lt_of_le_of_lt (Nat.sub_le _ _) t.isLt⟩)) (iblk0 V c 0 t) (iblk0 V c 1 t)) (iblk0 V c 2 t) y
    = hiddenR (V c main_arg1) (V c main_v6) (V c main_v7) (((cfg0.win 3).blk t).view.emb y)
  refine (congrArg (k0_pay3 (F := Ideal) (k0_pay2 (k0_pay2 k0_pay1 (iblk0 V c 0 ⟨t.val - 1, Nat.lt_of_le_of_lt (Nat.sub_le _ _) t.isLt⟩)
        (iblk0 V c 1 ⟨t.val - 1, Nat.lt_of_le_of_lt (Nat.sub_le _ _) t.isLt⟩)) (iblk0 V c 0 t) (iblk0 V c 1 t)) (iblk0 V c 2 t))
    (eq_ix2 (n0 := 512) (n1 := 128) y)).trans (key.trans (congrArg _ (funext fun a => Fin.ext ?_)))
  match a with
  | ⟨0, _⟩ => show 512 * (t.val / 2) + (y 0).val = win0_3.index t (0 : Fin 2) * 512 + 1 * (y 0).val; omega
  | ⟨1, _⟩ => show (y 1).val = win0_3.index t (1 : Fin 2) * 128 + 1 * (y 1).val; omega

/-- An index of the result is in point t's row block iff each coordinate is in the block's range on its axis. -/
theorem mem_hblock (t : Fin cfg0.N) (i : S4096x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v8).slice (win0_3.rect t)).set ↔ _
  rw [View.set_slice_whole, Rect.mem_set_unit]
  exact Iff.rfl

/-- The eight row blocks tile the rows: row r lies in the block of the odd point 2·(r / 512) + 1. -/
theorem hid_cover (i : S4096x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  have h8 : cfg0.N = 16 := N_0
  let t : Fin cfg0.N := ⟨2 * ((i 0).val / 512) + 1, by omega⟩
  have tv : t.val = 2 * ((i 0).val / 512) + 1 := rfl
  refine ⟨t, (flush0_3 t).mpr (by omega), ?_⟩
  rw [mem_hblock]
  obtain ⟨-, -, -, -, -, -, e6, e7⟩ := idx_facts0 t
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- THE RESULT ARRAY after the first call is the hidden layer of the arrays as the call finds them. -/
theorem hid_final (c : Dev nD) :
    (dat0 V c).arrAt 3 cfg0.N = hiddenR (V c main_arg1) (V c main_v6) (V c main_v7) :=
  (dat0 V c).arrAt_eq_of_cover 3 _ (fun t ht => hid_flushed V c t ((flush0_3 t).mp ht)) hid_cover

end Cert.ReferenceIdeal.RVal

end
-- ==== Proof.LibScatterSet.lean ====
/-
  The host's scatter whose body keeps the UPDATE (a write, not an accumulation), read at an index.

  `Host.scatter d f x idx upd` is a left fold over the update indices in row-major order. When the body returns
  the update, an operand index that no update lands on keeps the operand's element, and an operand index that
  exactly ONE update lands on holds that update (no other update touches it, so the order of the fold does not
  matter there).
-/
import Idealize.ShloMosaic.PureOps.Ideal.Laws
import Idealize.ShloMosaic.Lib.ValueIdx

noncomputable section

namespace Idealize.ShloMosaic.ScatterSet

open Idealize.ShloMosaic

variable {α : Type} {s : Shape} {ι : Type}

/-- One step of the fold: the update `n` written at the index it lands on, if it lands. -/
def step (res : ι → Option s.Idx) (f : α → α → α) (val : ι → α) (r : s.Idx → α) (n : ι) : s.Idx → α :=
  match res n with
  | some i => fun i' => if i' = i then f (r i) (val n) else r i'
  | none => r

/-- A step whose update does not land on `i` leaves `i` alone. -/
theorem step_of_ne (res : ι → Option s.Idx) (f : α → α → α) (val : ι → α) (r : s.Idx → α) (n : ι) (i : s.Idx)
    (h : res n ≠ some i) : step res f val r n i = r i := by
  unfold step
  cases hres : res n with
  | none => rfl
  | some i' =>
    have hne : i ≠ i' := fun e => h (by rw [hres, e])
    simp [hne]

/-- A step whose update lands on `i`, the body keeping the update, leaves the update there. -/
theorem step_of_eq (res : ι → Option s.Idx) (val : ι → α) (r : s.Idx → α) (n : ι) (i : s.Idx)
    (h : res n = some i) : step res (fun _ b => b) val r n i = val n := by
  unfold step
  rw [h]
  simp

/-- Updates none of which lands on `i` leave `i` alone. -/
theorem fold_of_none (res : ι → Option s.Idx) (f : α → α → α) (val : ι → α) (i : s.Idx) :
    ∀ (L : List ι) (r : s.Idx → α), (∀ n ∈ L, res n ≠ some i) → (L.foldl (step res f val) r) i = r i
  | [], _, _ => rfl
  | n :: L, r, h => by
    rw [List.foldl_cons, fold_of_none res f val i L _ fun n' hn' => h n' (List.mem_cons_of_mem _ hn')]
    exact step_of_ne res f val r n i (h n (List.mem_cons_self ..))

/-- Among distinct updates exactly one of which lands on `i`, the body keeping the update, `i` ends at that update. -/
theorem fold_of_unique (res : ι → Option s.Idx) (val : ι → α) (i : s.Idx) (n₀ : ι) (h₀ : res n₀ = some i) :
    ∀ (L : List ι) (r : s.Idx → α), L.Nodup → n₀ ∈ L → (∀ n ∈ L, res n = some i → n = n₀) →
      (L.foldl (step res (fun _ b => b) val) r) i = val n₀
  | [], _, _, hm, _ => absurd hm (List.not_mem_nil)
  | n :: L, r, hnd, hm, hu => by
    rw [List.foldl_cons]
    have hnd' := List.nodup_cons.mp hnd
    by_cases hn : n = n₀
    · subst hn
      rw [fold_of_none res _ val i L _ fun n' hn' e => hnd'.1 (by rw [← hu n' (List.mem_cons_of_mem _ hn') e]; exact hn')]
      exact step_of_eq res val r n i h₀
    · have hm' : n₀ ∈ L := by
        rcases List.mem_cons.mp hm with e | e
        · exact absurd e.symm hn
        · exact e
      exact fold_of_unique res val i n₀ h₀ L _ hnd'.2 hm' fun n' hn' e => hu n' (List.mem_cons_of_mem _ hn') e

variable {si u : Shape} {w : Nat}

/-- The scatter is the fold of `step` over the update positions in row-major order. -/
theorem scatter_eq_fold (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter step
  rfl

/-- An operand index no update lands on keeps the operand's element. -/
theorem scatter_of_none (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_fold]
  exact fold_of_none _ f _ i _ x fun n _ => h _

/-- An operand index exactly one update lands on, the body keeping the update, holds that update. -/
theorem scatter_of_unique (d : ScatterDims s si u) (x : s.Idx → α) (idx : IVec si w) (upd : u.Idx → α)
    (i : s.Idx) (j₀ : u.Idx) (h₀ : d.resultIdx? j₀ idx = some i) (hu : ∀ j, d.resultIdx? j idx = some i → j = j₀) :
    Host.scatter d (fun _ b => b) x idx upd i = upd j₀ := by
  rw [scatter_eq_fold]
  have e := fold_of_unique (fun n => d.resultIdx? (u.rowMajor.symm n) idx) (fun n => upd (u.rowMajor.symm n)) i
    (u.rowMajor j₀) (by simpa using h₀) (List.finRange u.numel) x (List.nodup_finRange _) (List.mem_finRange _)
    (fun n _ hn => by
      have := hu _ hn
      rw [← this]; simp)
  simpa using e

end Idealize.ShloMosaic.ScatterSet

end
-- ==== Proof.LibScatter.lean ====
/-
  The host's scatter and gather along the rows of an array, read at an index.

  `Host.scatter d f x idx upd` is a left fold over the update indices in row-major order. When the
  body `f` is the addition of a commutative monoid the fold's value at an operand index is the
  operand's element plus the sum of the updates whose result index is that element
  (`scatter_add_apply`), the same statement as the definition of the exact float scatter-add
  (`scatterAdd_apply`). For the two row forms (scalar updates `[N]` into `[R]`, row updates
  `[N, C]` into `[R, C]`, one scatter index per update, read off an `[N, 1]` array) the set of
  updates landing on row `r` is the set of `p` whose index word, read signed, is `r`. The row
  gather `[R, C]` at `[N, 1]` start indices reads row `min (index) (R - 1)`.
-/
import Idealize.ShloMosaic.PureOps.Ideal.Laws
import Idealize.ShloMosaic.Lib.ValueIdx

noncomputable section

namespace Cert.Proof.LibScatter

open Idealize.ShloMosaic Idealize.ShloMosaic.ValueIdx
open scoped BigOperators

/-! ## The fold of an additive body -/

section Fold

variable {α : Type} [AddCommMonoid α] {s si u : Shape} {w : Nat}

/-- A fold whose step adds `c n` pointwise: the start value plus the list's contributions. -/
theorem fold_apply {ι : Type} (g : (s.Idx → α) → ι → (s.Idx → α)) (c : ι → s.Idx → α)
    (hg : ∀ r n i, g r n i = r i + c n i) (i : s.Idx) (L : List ι) (r : s.Idx → α) :
    (L.foldl g r) i = r i + (L.map fun n => c n i).sum := by
  induction L generalizing r with
  | nil => simp
  | cons n L ih => rw [List.foldl_cons, ih, hg, List.map_cons, List.sum_cons, add_assoc]

/-- THE SCATTER OF AN ADDITIVE BODY AT AN INDEX: the operand's element plus the sum of the updates
    whose result index is that element. -/
theorem scatter_add_apply (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  unfold Host.scatter
  refine (fold_apply _ (fun n i => if d.resultIdx? (u.rowMajor.symm n) idx = some i then upd (u.rowMajor.symm n) else 0)
    ?_ i _ x).trans ?_
  · intro r n i'
    generalize d.resultIdx? (u.rowMajor.symm n) idx = o
    cases o with
    | none => simp
    | some i₀ =>
      by_cases hi : i' = i₀
      · subst hi; simp [hf]
      · have hne : ¬ (some i₀ = some i') := fun e => hi (Option.some.inj e).symm
        simp [hi, hne]
  · rw [← Fin.sum_univ_def]
    congr 1
    exact Equiv.sum_comp u.rowMajor.symm (fun j => if d.resultIdx? j idx = some i then upd j else 0)

/-- The exact float scatter-add at an index, in the same form. -/
theorem scatterAdd_apply {φ : FTy} (d : ScatterDims s si u) (x : FVec Ideal s φ) (idx : IVec si w)
    (upd : FVec Ideal u φ) (i : s.Idx) :
    Host.scatterAdd d x idx upd i = x i + ∑ j : u.Idx, if d.resultIdx? j idx = some i then upd j else 0 := by
  show Ideal.hostScatterAdd d x idx upd i = _
  unfold Ideal.hostScatterAdd
  rw [Finset.sum_filter]

/-- An update lands on `i` exactly when start plus window coordinate is `i`'s coordinate on every axis. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hall
      have hi := Option.some.inj h
      intro a
      have := congrFun hi a
      have h2 := hall a
      rw [← this]
      simp only
      omega
    · exact absurd h (by simp)
  · intro h
    have hall : ∀ a, 0 ≤ d.start j idx a + (d.window j a : ℤ) ∧ d.start j idx a + (d.window j a : ℤ) < s.size a := by
      intro a; rw [h a]; exact ⟨by omega, by exact_mod_cast (i a).isLt⟩
    rw [dif_pos hall]
    congr 1
    funext a
    refine Fin.ext ?_
    simp only
    rw [h a]; omega

end Fold

/-! ## The row forms -/

section Rows

variable {α : Type} {R C N w : Nat}

/-- A rank-1 index set is its coordinate's range. -/
def idxEquiv1 {n : Nat} : (⟨1, ![n]⟩ : Shape).Idx ≃ Fin n where
  toFun i := i 0
  invFun p := ix1 p
  left_inv i := (eq_ix1 i).symm
  right_inv _ := rfl

theorem sum_idx1 {M : Type} [AddCommMonoid M] {n : Nat} (g : (⟨1, ![n]⟩ : Shape).Idx → M) :
    ∑ i, g i = ∑ p : Fin n, g (ix1 p) :=
  (Equiv.sum_comp (idxEquiv1 (n := n)).symm g).symm

/-- Scalar updates `[N]` into `[R]`, one scatter index per update read off an `[N, 1]` array. -/
abbrev rows1 (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Row updates `[N, C]` into `[R, C]`, one scatter index per row read off an `[N, 1]` array. -/
abbrev rows2 (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

theorem rows1_start (wf : ScatterDims.WF ⟨1, ![R]⟩ ⟨2, ![N, 1]⟩ ⟨1, ![N]⟩ [] [0] [0] 1)
    (p : Fin N) (idx : IVec ⟨2, ![N, 1]⟩ w) :
    (rows1 R N wf).start (ix1 p) idx 0 = (idx (ix2 p 0)).toInt := by
  unfold ScatterDims.start
  rw [dif_pos (show (0 : Fin 1) ∈ (rows1 R N wf).scatterDimsToOperandDims from List.mem_singleton.mpr rfl)]
  congr 2
  funext b; refine Fin.ext ?_
  match b with
  | ⟨0, _⟩ => rfl
  | ⟨1, _⟩ => rfl

theorem rows1_window (wf : ScatterDims.WF ⟨1, ![R]⟩ ⟨2, ![N, 1]⟩ ⟨1, ![N]⟩ [] [0] [0] 1) (p : Fin N) :
    (rows1 R N wf).window (ix1 p) 0 = 0 := by
  unfold ScatterDims.window
  rw [dif_neg]
  simp [ScatterDims.sKept, Shape.kept]

/-- The update `p` lands on `r` exactly when its index word, read signed, is `r`. -/
theorem rows1_lands (wf : ScatterDims.WF ⟨1, ![R]⟩ ⟨2, ![N, 1]⟩ ⟨1, ![N]⟩ [] [0] [0] 1)
    (p : Fin N) (idx : IVec ⟨2, ![N, 1]⟩ w) (r : Fin R) :
    (rows1 R N wf).resultIdx? (ix1 p) idx = some (ix1 r) ↔ (idx (ix2 p 0)).toInt = (r.val : ℤ) := by
  rw [resultIdx?_eq_some_iff]
  constructor
  · intro h
    have h0 := h 0
    rw [rows1_start, rows1_window, Nat.cast_zero, add_zero] at h0
    exact h0
  · intro h a
    obtain rfl : a = 0 := Subsingleton.elim _ _
    rw [rows1_start, rows1_window, Nat.cast_zero, add_zero]
    exact h

/-- The scatter of an additive body over scalar updates, at row `r`. -/
theorem rows1_scatter_add_apply [AddCommMonoid α]
    (wf : ScatterDims.WF ⟨1, ![R]⟩ ⟨2, ![N, 1]⟩ ⟨1, ![N]⟩ [] [0] [0] 1) (f : α → α → α) (hf : ∀ a b, f a b = a + b)
    (x : (⟨1, ![R]⟩ : Shape).Idx → α) (idx : IVec ⟨2, ![N, 1]⟩ w) (upd : (⟨1, ![N]⟩ : Shape).Idx → α) (r : Fin R) :
    Host.scatter (rows1 R N wf) f x idx upd (ix1 r)
      = x (ix1 r) + ∑ p : Fin N, if (idx (ix2 p 0)).toInt = (r.val : ℤ) then upd (ix1 p) else 0 := by
  rw [scatter_add_apply _ f hf, sum_idx1]
  congr 1
  exact Finset.sum_congr rfl fun p _ => if_congr (rows1_lands wf p idx r) rfl rfl

/-- The exact float scatter-add over scalar updates, at row `r`. -/
theorem rows1_scatterAdd_apply {φ : FTy}
    (wf : ScatterDims.WF ⟨1, ![R]⟩ ⟨2, ![N, 1]⟩ ⟨1, ![N]⟩ [] [0] [0] 1)
    (x : FVec Ideal ⟨1, ![R]⟩ φ) (idx : IVec ⟨2, ![N, 1]⟩ w) (upd : FVec Ideal ⟨1, ![N]⟩ φ) (r : Fin R) :
    Host.scatterAdd (rows1 R N wf) x idx upd (ix1 r)
      = x (ix1 r) + ∑ p : Fin N, if (idx (ix2 p 0)).toInt = (r.val : ℤ) then upd (ix1 p) else 0 := by
  rw [scatterAdd_apply, sum_idx1]
  congr 1
  exact Finset.sum_congr rfl fun p _ => if_congr (rows1_lands wf p idx r) rfl rfl

theorem rows2_start0 (wf : ScatterDims.WF ⟨2, ![R, C]⟩ ⟨2, ![N, 1]⟩ ⟨2, ![N, C]⟩ [1] [0] [0] 1)
    (p : Fin N) (b : Fin C) (idx : IVec ⟨2, ![N, 1]⟩ w) :
    (rows2 R C N wf).start (ix2 p b) idx 0 = (idx (ix2 p 0)).toInt := by
  unfold ScatterDims.start
  rw [dif_pos (show (0 : Fin 2) ∈ (rows2 R C N wf).scatterDimsToOperandDims from List.mem_singleton.mpr rfl)]
  congr 2
  funext b'; refine Fin.ext ?_
  match b' with
  | ⟨0, _⟩ => rfl
  | ⟨1, _⟩ => rfl

theorem rows2_start1 (wf : ScatterDims.WF ⟨2, ![R, C]⟩ ⟨2, ![N, 1]⟩ ⟨2, ![N, C]⟩ [1] [0] [0] 1)
    (p : Fin N) (b : Fin C) (idx : IVec ⟨2, ![N, 1]⟩ w) :
    (rows2 R C N wf).start (ix2 p b) idx 1 = 0 := by
  unfold ScatterDims.start
  rw [dif_neg]
  simp

theorem rows2_window0 (wf : ScatterDims.WF ⟨2, ![R, C]⟩ ⟨2, ![N, 1]⟩ ⟨2, ![N, C]⟩ [1] [0] [0] 1)
    (p : Fin N) (b : Fin C) : (rows2 R C N wf).window (ix2 p b) 0 = 0 := by
  unfold ScatterDims.window
  rw [dif_neg]
  simp [ScatterDims.sKept, Shape.kept]

theorem rows2_window1 (wf : ScatterDims.WF ⟨2, ![R, C]⟩ ⟨2, ![N, 1]⟩ ⟨2, ![N, C]⟩ [1] [0] [0] 1)
    (p : Fin N) (b : Fin C) : (rows2 R C N wf).window (ix2 p b) 1 = b.val := by
  unfold ScatterDims.window
  rw [dif_pos (by simp [ScatterDims.sKept, Shape.kept])]
  rfl

/-- The update `(p, b)` lands on `(r, c)` exactly when `p`'s index word, read signed, is `r` and `b = c`. -/
theorem rows2_lands (wf : ScatterDims.WF ⟨2, ![R, C]⟩ ⟨2, ![N, 1]⟩ ⟨2, ![N, C]⟩ [1] [0] [0] 1)
    (p : Fin N) (b : Fin C) (idx : IVec ⟨2, ![N, 1]⟩ w) (r : Fin R) (c : Fin C) :
    (rows2 R C N wf).resultIdx? (ix2 p b) idx = some (ix2 r c) ↔ (idx (ix2 p 0)).toInt = (r.val : ℤ) ∧ b = c := by
  rw [resultIdx?_eq_some_iff]
  constructor
  · intro h
    have h0 := h 0
    have h1 := h 1
    rw [rows2_start0, rows2_window0, Nat.cast_zero, add_zero] at h0
    rw [rows2_start1, rows2_window1, zero_add] at h1
    refine ⟨h0, Fin.ext ?_⟩
    have h1' : ((b.val : ℕ) : ℤ) = ((c.val : ℕ) : ℤ) := h1
    exact_mod_cast h1'
  · rintro ⟨h, rfl⟩ a
    match a with
    | ⟨0, _⟩ =>
      show (rows2 R C N wf).start (ix2 p b) idx 0 + ((rows2 R C N wf).window (ix2 p b) 0 : ℤ) = _
      rw [rows2_start0, rows2_window0, Nat.cast_zero, add_zero]; exact h
    | ⟨1, _⟩ =>
      show (rows2 R C N wf).start (ix2 p b) idx 1 + ((rows2 R C N wf).window (ix2 p b) 1 : ℤ) = _
      rw [rows2_start1, rows2_window1, zero_add]

/-- The exact float scatter-add over row updates, at `(r, c)`. -/
theorem rows2_scatterAdd_apply {φ : FTy}
    (wf : ScatterDims.WF ⟨2, ![R, C]⟩ ⟨2, ![N, 1]⟩ ⟨2, ![N, C]⟩ [1] [0] [0] 1)
    (x : FVec Ideal ⟨2, ![R, C]⟩ φ) (idx : IVec ⟨2, ![N, 1]⟩ w) (upd : FVec Ideal ⟨2, ![N, C]⟩ φ) (r : Fin R) (c : Fin C) :
    Host.scatterAdd (rows2 R C N wf) x idx upd (ix2 r c)
      = x (ix2 r c) + ∑ p : Fin N, if (idx (ix2 p 0)).toInt = (r.val : ℤ) then upd (ix2 p c) else 0 := by
  rw [scatterAdd_apply, sum_idx2]
  congr 1
  refine Finset.sum_congr rfl fun p _ => ?_
  have hb : ∀ b : Fin C, (if (rows2 R C N wf).resultIdx? (ix2 p b) idx = some (ix2 r c) then upd (ix2 p b) else 0)
      = if b = c then (if (idx (ix2 p 0)).toInt = (r.val : ℤ) then upd (ix2 p c) else 0) else 0 := by
    intro b
    rw [if_congr (rows2_lands wf p b idx r c) rfl rfl]
    by_cases hbc : b = c
    · subst hbc; simp
    · simp [hbc]
  simp only [hb, Finset.sum_ite_eq', Finset.mem_univ, if_true]

/-- Rows of an `[R, C]` array gathered at `[N, 1]` start indices. -/
abbrev rowsG (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, c)`: row `min (index word, read signed) (R - 1)`, column `c`. -/
theorem rowsG_apply (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (p : Fin N) (c : Fin C) (k : Fin R)
    (hk : k.val = min (idx (ix2 p 0)).toInt.toNat (R - 1)) :
    Host.gather (rowsG R C N wf) x idx (ix2 p c) = x (ix2 k c) := by
  unfold Host.gather
  congr 1
  funext a
  refine Fin.ext ?_
  match a with
  | ⟨0, _⟩ =>
    show (rowsG R C N wf).start (ix2 p c) idx 0 + (rowsG R C N wf).batchCoord (ix2 p c) 0 + (rowsG R C N wf).offCoord (ix2 p c) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsG R C N wf).startIndexMap from List.mem_singleton.mpr rfl), hk]
    have hsi : (rowsG R C N wf).siIdx (ix2 p c) ⟨List.idxOf (0 : Fin 2) (rowsG R C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowsG R C N wf).start (ix2 p c) idx 1 + (rowsG R C N wf).batchCoord (ix2 p c) 1 + (rowsG R C N wf).offCoord (ix2 p c) 1 = c.val
    rw [GatherDims.batchCoord_eq_zero _ _ _ List.not_mem_nil]
    have hs : (rowsG R C N wf).start (ix2 p c) idx 1 = 0 := by
      unfold GatherDims.start
      rw [dif_neg]
      simp
    have ho : (rowsG R C N wf).offCoord (ix2 p c) 1 = c.val := by
      unfold GatherDims.offCoord
      rw [dif_pos (by simp [GatherDims.sKept, Shape.kept])]
      rfl
    rw [hs, ho]; omega

end Rows

end Cert.Proof.LibScatter

end
-- ==== Proof.RvHost.lean ====
import proofs.«135639_g2000505199253694_pallasbulk_90_2_alg».proof.Proof.Gen.ReferenceIdeal.Launch
import proofs.«135639_g2000505199253694_pallasbulk_90_2_alg».proof.Proof.Spec
import proofs.«135639_g2000505199253694_pallasbulk_90_2_alg».proof.Proof.LibPlainDot
import proofs.«135639_g2000505199253694_pallasbulk_90_2_alg».proof.Proof.LibScatterSet
import proofs.«135639_g2000505199253694_pallasbulk_90_2_alg».proof.Proof.LibScatter
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

/-
  What the host operations before the two calls compute, on the extended reals: W padded with zero columns up to
  128 (a scatter of W into a 32 × 128 array of zeros at column offset 0), b padded with zeros up to 128 (a scatter
  of b into 128 zeros at offset 0), the product x · (padded W), and the padded b as a 1 × 128 row. No host
  operation writes A.
-/

noncomputable section

namespace Cert.ReferenceIdeal.RVal

open Cert.ReferenceIdeal Cert.ReferenceIdeal.Gen
open Idealize.ShloMosaic Idealize.ShloMosaic.ValueIdx Idealize.ShloMosaic.TcCoe
open Cert.Proof
open scoped BigOperators

/-! ## Where the updates of the two scatters land: offset 0 on every axis, so update (k, q) lands on (k, q) -/

/-- The matrix scatter starts every window at 0: its one start index is the word 0 and names the column axis. -/
theorem startW (idx : IVec S1 32) (hidx : ∀ i, idx i = 0#32) (j : S32x32.Idx) (a : Fin S32x128.rank) :
    scatter_S32x128_S1_S32x32_01_n_1_0.start j idx a = 0 := by
  unfold ScatterDims.start
  split
  · rw [hidx]; rfl
  · rfl

/-- Its window coordinate on an axis is the update's coordinate on that axis. -/
theorem windowW (j : S32x32.Idx) (a : Fin S32x128.rank) :
    scatter_S32x128_S1_S32x32_01_n_1_0.window j a = (j a).val := by
  match a with
  | ⟨0, _⟩ =>
    unfold ScatterDims.window
    rw [dif_pos (show (⟨0, by decide⟩ : Fin S32x128.rank) ∈ scatter_S32x128_S1_S32x32_01_n_1_0.sKept from by decide)]
    rfl
  | ⟨1, _⟩ =>
    unfold ScatterDims.window
    rw [dif_pos (show (⟨1, by decide⟩ : Fin S32x128.rank) ∈ scatter_S32x128_S1_S32x32_01_n_1_0.sKept from by decide)]
    rfl

/-- Update (k, q) of the matrix scatter lands on the operand's (k, q). -/
theorem landW (idx : IVec S1 32) (hidx : ∀ i, idx i = 0#32) (j : S32x32.Idx) (i : S32x128.Idx) :
    scatter_S32x128_S1_S32x32_01_n_1_0.resultIdx? j idx = some i ↔ (j 0).val = (i 0).val ∧ (j 1).val = (i 1).val := by
  rw [LibScatter.resultIdx?_eq_some_iff]
  constructor
  · intro h
    have h0 := h 0; have h1 := h 1
    rw [startW idx hidx, windowW] at h0 h1
    exact ⟨by omega, by omega⟩
  · rintro ⟨h0, h1⟩ a
    rw [startW idx hidx, windowW]
    match a with
    | ⟨0, _⟩ => show (0 : ℤ) + ((j 0).val : ℤ) = ((i 0).val : ℤ); omega
    | ⟨1, _⟩ => show (0 : ℤ) + ((j 1).val : ℤ) = ((i 1).val : ℤ); omega

/-- W written over the first 32 columns of a 32 × 128 array of zeros: W where the column is below 32, zero beyond. -/
theorem padW_read (idx : IVec S1 32) (hidx : ∀ i, idx i = 0#32) (x : S32x128.Idx → EReal) (hx : ∀ i, x i = 0)
    (upd : S32x32.Idx → EReal) (k : Fin 32) (q : Fin 128) :
    Host.scatter scatter_S32x128_S1_S32x32_01_n_1_0 (fun _ b => b) x idx upd (ix2 k q)
      = if h : q.val < 32 then upd (ix2 k ⟨q.val, h⟩) else 0 := by
  by_cases h : q.val < 32
  · rw [dif_pos h]
    refine ScatterSet.scatter_of_unique _ x idx upd (ix2 k q) (ix2 k ⟨q.val, h⟩) ((landW idx hidx _ _).mpr ⟨rfl, rfl⟩) fun j hj => ?_
    obtain ⟨h0, h1⟩ := (landW idx hidx _ _).mp hj
    rw [eq_ix2 j]
    exact congrArg₂ ix2 (Fin.ext h0) (Fin.ext h1)
  · rw [dif_neg h, ScatterSet.scatter_of_none _ _ x idx upd (ix2 k q) fun j hj => h (by
      obtain ⟨-, h1⟩ := (landW idx hidx _ _).mp hj
      have hlt : (j 1).val < 32 := (j 1).isLt
      have h1' : (j 1).val = q.val := h1
      omega), hx]

/-- The vector scatter starts its window at 0. -/
theorem startB (idx : IVec S1 32) (hidx : ∀ i, idx i = 0#32) (j : S32.Idx) (a : Fin S128.rank) :
    scatter_S128_S1_S32_0_n_0_0.start j idx a = 0 := by
  unfold ScatterDims.start
  split
  · rw [hidx]; rfl
  · rfl

/-- Its window coordinate is the update's coordinate. -/
theorem windowB (j : S32.Idx) (a : Fin S128.rank) :
    scatter_S128_S1_S32_0_n_0_0.window j a = (j a).val := by
  match a with
  | ⟨0, _⟩ =>
    unfold ScatterDims.window
    rw [dif_pos (show (⟨0, by decide⟩ : Fin S128.rank) ∈ scatter_S128_S1_S32_0_n_0_0.sKept from by decide)]
    rfl

/-- Update q of the vector scatter lands on the operand's entry q. -/
theorem landB (idx : IVec S1 32) (hidx : ∀ i, idx i = 0#32) (j : S32.Idx) (i : S128.Idx) :
    scatter_S128_S1_S32_0_n_0_0.resultIdx? j idx = some i ↔ (j 0).val = (i 0).val := by
  rw [LibScatter.resultIdx?_eq_some_iff]
  constructor
  · intro h
    have h0 := h 0
    rw [startB idx hidx, windowB] at h0
    omega
  · intro h0 a
    rw [startB idx hidx, windowB]
    match a with
    | ⟨0, _⟩ => show (0 : ℤ) + ((j 0).val : ℤ) = ((i 0).val : ℤ); omega

/-- b written over the first 32 entries of 128 zeros: b where the entry is below 32, zero beyond. -/
theorem padB_read (idx : IVec S1 32) (hidx : ∀ i, idx i = 0#32) (x : S128.Idx → EReal) (hx : ∀ i, x i = 0)
    (upd : S32.Idx → EReal) (q : Fin 128) :
    Host.scatter scatter_S128_S1_S32_0_n_0_0 (fun _ b => b) x idx upd (ix1 q)
      = if h : q.val < 32 then upd (ix1 ⟨q.val, h⟩) else 0 := by
  by_cases h : q.val < 32
  · rw [dif_pos h]
    refine ScatterSet.scatter_of_unique _ x idx upd (ix1 q) (ix1 ⟨q.val, h⟩) ((landB idx hidx _ _).mpr rfl) fun j hj => ?_
    have h0 := (landB idx hidx _ _).mp hj
    rw [eq_ix1 j]
    exact congrArg ix1 (Fin.ext h0)
  · rw [dif_neg h, ScatterSet.scatter_of_none _ _ x idx upd (ix1 q) fun j hj => h (by
      have h0 : (j 0).val = q.val := (landB idx hidx _ _).mp hj
      have hlt : (j 0).val < 32 := (j 0).isLt
      omega), hx]

/-! ## The constants the scatters start from -/

/-- The scalar zero broadcast to any shape is zero everywhere. -/
theorem zeros_apply {T : Shape} (h : S_.BroadcastsInDim T ![]) (i : T.Idx) :
    (broadcastInDim T ![] h (constant (F := Ideal) S_ .f32 0x00000000#32) : T.Idx → EReal) i = 0 := by
  rw [broadcastInDim_scalar_apply, constant_apply, Ideal.ofBits_zero_f32]

/-- The scalar index 0 broadcast to one entry is the word 0. -/
theorem zeroIdx_apply (i : S1.Idx) :
    (broadcastInDim S1 ![] bcast_S_S1 (constantI S_ 32 0#32) : IVec S1 32) i = 0#32 := by
  rw [broadcastInDim_scalar_apply]; rfl

/-! ## The host operations' results, read at an index -/

/-- After the host operations the 4096 × 128 operand of the first call is x · (W padded to 128 columns). -/
theorem support_read (W : Valuation τ sig (Elt Ideal)) (n : Fin 4096) (j : Fin 128) :
    (StableHlo.after hostOps0 W (Proc.devRef .tc main_v6) : S4096x128.Idx → EReal) (ix2 n j)
      = Spec.support (fun n k => (W (Proc.devRef .tc main_arg0) : S4096x32.Idx → EReal) (ix2 n k))
          (fun k j => (W (Proc.devRef .tc main_arg2) : S32x32.Idx → EReal) (ix2 k j)) n j := by
  have e : (StableHlo.after hostOps0 W (Proc.devRef .tc main_v6) : S4096x128.Idx → EReal)
      = Host.dotGeneral (F := Ideal) (φ₁ := .f32) (φ₂ := .f32) dot_S4096x32_S32x128_S4096x128_1_0_0_1_n_n none
          (W (Proc.devRef .tc main_arg0) : S4096x32.Idx → EReal)
          (Host.scatter scatter_S32x128_S1_S32x32_01_n_1_0 (fun _ b => b)
            (broadcastInDim S32x128 ![] bcast_S_S32x128 (constant (F := Ideal) S_ .f32 0x00000000#32))
            (broadcastInDim S1 ![] bcast_S_S1 (constantI S_ 32 0#32))
            (W (Proc.devRef .tc main_arg2) : S32x32.Idx → EReal)) := by
    dsimp only [hostOps0]; after_results <;> rfl
  rw [e]
  refine (PlainDot.hostDot_apply (M := 4096) (K := 32) (N := 128) (φ₁ := .f32) (φ₂ := .f32) _ _ _).trans ?_
  unfold Spec.support
  refine Finset.sum_congr rfl fun k _ => ?_
  refine congrArg₂ (· * ·) rfl ?_
  exact (padW_read _ zeroIdx_apply _ (zeros_apply bcast_S_S32x128) _ k j).trans rfl

/-- After the host operations the 1 × 128 operand of the first call is b padded to 128 entries. -/
theorem bias_read (W : Valuation τ sig (Elt Ideal)) (j : Fin 128) :
    (StableHlo.after hostOps0 W (Proc.devRef .tc main_v7) : S1x128.Idx → EReal) (ix2 (0 : Fin 1) j)
      = Spec.padB (fun j => (W (Proc.devRef .tc main_arg3) : S32.Idx → EReal) (ix1 j)) j := by
  have e : (StableHlo.after hostOps0 W (Proc.devRef .tc main_v7) : S1x128.Idx → EReal)
      = shapeCast S1x128
          (Host.scatter scatter_S128_S1_S32_0_n_0_0 (fun _ b => b)
            (broadcastInDim S128 ![] bcast_S_S128 (constant (F := Ideal) S_ .f32 0x00000000#32))
            (broadcastInDim S1 ![] bcast_S_S1 (constantI S_ 32 0#32))
            (W (Proc.devRef .tc main_arg3) : S32.Idx → EReal)) shapeCasts_S128_S1x128 := by
    dsimp only [hostOps0]; after_results <;> rfl
  rw [e, shapeCast_a_1a_apply]
  exact (padB_read _ zeroIdx_apply _ (zeros_apply bcast_S_S128) _ j).trans rfl

/-- No host operation writes A. -/
theorem arg1_kept (W : Valuation τ sig (Elt Ideal)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.ReferenceIdeal.RVal

end
-- ==== Proof.RvRun.lean ====
/-
  The reference's run, read as a value.

  The host pads W and the bias with zero columns up to 128 and forms  support = X · (padded W); the first call
  leaves in its result array the 128-column hidden layer  max (A · support + padded bias, 0),  the long axis summed
  in two halves; the second call leaves the Gram matrix of that array in the program's result; no other operation
  touches either. So the program's result is ONE function of the four argument arrays: entry (r, c) is
  `Spec.gramR` of their coordinate functions.
-/
import proofs.«135639_g2000505199253694_pallasbulk_90_2_alg».proof.Proof.RiRun
import proofs.«135639_g2000505199253694_pallasbulk_90_2_alg».proof.Proof.RvGram
import proofs.«135639_g2000505199253694_pallasbulk_90_2_alg».proof.Proof.RvHidden
import proofs.«135639_g2000505199253694_pallasbulk_90_2_alg».proof.Proof.RvHost
import proofs.«135639_g2000505199253694_pallasbulk_90_2_alg».proof.Proof.Spec

set_option maxRecDepth 16384

noncomputable section

namespace Cert.ReferenceIdeal.RVal

open Cert.ReferenceIdeal Cert.ReferenceIdeal.Gen Cert.ReferenceIdeal.Hand
open Idealize.ShloMosaic Idealize.ShloMosaic.ValueIdx Idealize.ShloMosaic.TcCoe Idealize.SL.Sem
open Cert.Proof

/-- The program's result as one function of the four argument arrays. -/
def result (a0 : S4096x32.Idx → EReal) (a1 : S4096x4096.Idx → EReal) (a2 : S32x32.Idx → EReal) (a3 : S32.Idx → EReal) :
    S4096x4096.Idx → EReal := fun i =>
  Spec.gramR (fun r n => a1 (ix2 r n)) (fun n k => a0 (ix2 n k)) (fun k j => a2 (ix2 k j)) (fun j => a3 (ix1 j)) (i 0) (i 1)

/-- The Gram matrix of the hidden layer over a support array and a bias row that ARE the padded product and the
    padded bias of the arguments is that function. -/
theorem gram_hidden (A : S4096x4096.Idx → EReal) (S : S4096x128.Idx → EReal) (B : S1x128.Idx → EReal)
    (a0 : S4096x32.Idx → EReal) (a2 : S32x32.Idx → EReal) (a3 : S32.Idx → EReal)
    (hS : ∀ (n : Fin 4096) (j : Fin 128), S (ix2 n j) = Spec.support (fun n k => a0 (ix2 n k)) (fun k j => a2 (ix2 k j)) n j)
    (hB : ∀ j : Fin 128, B (ix2 (0 : Fin 1) j) = Spec.padB (fun j => a3 (ix1 j)) j) :
    gramOf (hiddenR A S B) = result a0 A a2 a3 := by
  funext i
  unfold gramOf hiddenR result Spec.gramR Spec.hidR
  simp only [hS, hB]

variable (m : (ℓ : Loc nD τ sig) → Buf (Elt Ideal) ℓ) (ρ : Dev nD → PrngReg)

/-- THE RESULT ARRAY after the run is the function of the launch memory's argument arrays. -/
theorem final (c : Dev nD) :
    W4 m ρ c (Proc.devRef .tc main_v9)
      = result (m ((c : Thread nD τ).loc main_arg0)) (m ((c : Thread nD τ).loc main_arg1))
          (m ((c : Thread nD τ).loc main_arg2)) (m ((c : Thread nD τ).loc main_arg3)) := by
  rw [W4_main_v9, gram_final, V3_main_v8, W2_main_v8, hid_final]
  have hA : V1 m ρ c main_arg1 = m ((c : Thread nD τ).loc main_arg1) := arg1_kept (W0 m ρ c)
  rw [hA]
  exact gram_hidden _ _ _ _ _ _ (fun n j => support_read (W0 m ρ c) n j) (fun j => bias_read (W0 m ρ c) j)

/-- THE RUN: every weakly fair execution terminates with the result at that function and the arguments unchanged. -/
theorem run : θ_run defs (onTc (τ := τ) (main (F := Ideal))) ⟨m, fun _ => 0, ρ⟩ (fun r => ∀ c : Dev nD,
      r.2.mem ((c.tc : Thread nD τ).loc main_v9)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v9 (by decide))).trans (final m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩)
    (run_all m ρ)

end Cert.ReferenceIdeal.RVal

end
-- ==== Proof.Finite.lean ====
/-
  What the precondition says: every entry of the four argument arrays is a real number.

  The printed predicate is the conjunction of four "all entries satisfy |v| < +∞" tests, each a reduction by `and`
  over a whole array. Read on the extended reals, |v| = max v (-v) is below +∞ exactly when v is neither infinity,
  that is, when v is (the image of) a real.
-/
import proofs.«135639_g2000505199253694_pallasbulk_90_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Proof.Finite

open Idealize.ShloMosaic Cert.Pre_finite_inputs

/-- The shape with no axis has one index. -/
instance : Subsingleton S_.Idx := ⟨fun a b => funext fun d => d.elim0⟩

/-- An extended real whose absolute value is below +∞ is a real. -/
theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  change BitVec.ofBool (decide (max v (-v) < ⊤)) = 1#1 at h
  have hlt : max v (-v) < ⊤ := by
    by_contra hc
    rw [decide_eq_false hc] at h
    exact absurd h (by decide)
  induction v using EReal.rec with
  | bot => simp at hlt
  | coe r => exact ⟨r, rfl⟩
  | top => simp at hlt

variable [Cert.Pre_finite_inputs.Facts]

/-- One "all entries finite" test that holds says every entry is a real. -/
theorem all_real {s : Shape} {axes : List (Fin s.rank)} (a : FVec Ideal s .f32) (bc : FVec Ideal s .f32)
    (hbc : ∀ i, bc i = Ideal.ofBits .f32 0x7F800000#32) (red : s.ReducesTo axes S_) (hu : 0 < S_.numel) (j : S_.Idx)
    (e : Host.reduce IntOp.andi (cmpf .olt (Host.absf a) bc) (constantI S_ 1 1#1) red hu j = 1#1) (i : s.Idx) :
    ∃ r : ℝ, a i = (r : EReal) := by
  have hi := Host.reduce_andi_all _ _ red hu j e i
  refine real_of_abs_lt (a i) ?_
  rw [← hbc i]
  exact hi

/-- THE PRECONDITION, READ: if the printed predicate of four arrays is all ones, every entry of each is a real. -/
theorem reals_of_pre (a0 : FVec Ideal S4096x32 .f32) (a1 : FVec Ideal S4096x4096 .f32) (a2 : FVec Ideal S32x32 .f32)
    (a3 : FVec Ideal S32 .f32) (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h (fun d => d.elim0)
  dsimp only [Cert.Pre_finite_inputs.fn, Cert.Pre_finite_inputs.fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => all_real a0 _ (fun _ => rfl) _ _ _ h0' i, fun i => all_real a1 _ (fun _ => rfl) _ _ _ h1 i,
    fun i => all_real a2 _ (fun _ => rfl) _ _ _ h2 i, fun i => all_real a3 _ (fun _ => rfl) _ _ _ h3 i⟩

end Cert.Proof.Finite

end
-- ==== Proof.Bridge.lean ====
/-
  The two results are one function of the four argument arrays, on finite entries.

  Each program's result is the Gram matrix of its hidden layer, written over the argument arrays' entries. When
  every entry is (the image of) a real, the reals behind them make the two Gram matrices `Spec.gram_eq`'s two sides.
-/
import proofs.«135639_g2000505199253694_pallasbulk_90_2_alg».proof.Proof.Spec
import Idealize.ShloMosaic.Lib.ValueIdx

noncomputable section

namespace Cert.Proof.Bridge

open Idealize.ShloMosaic Idealize.ShloMosaic.ValueIdx
open Cert.Proof

/-- The Gram matrix of the hidden layer grouped as (A · X) · W, over the entries of the four arrays. -/
def gramKOf (a0 : (⟨2, ![4096, 32]⟩ : Shape).Idx → EReal) (a1 : (⟨2, ![4096, 4096]⟩ : Shape).Idx → EReal)
    (a2 : (⟨2, ![32, 32]⟩ : Shape).Idx → EReal) (a3 : (⟨1, ![32]⟩ : Shape).Idx → EReal) :
    (⟨2, ![4096, 4096]⟩ : Shape).Idx → EReal := fun i =>
  Spec.gramK (fun r n => a1 (ix2 r n)) (fun n k => a0 (ix2 n k)) (fun k j => a2 (ix2 k j)) (fun j => a3 (ix1 j)) (i 0) (i 1)

/-- The Gram matrix of the hidden layer grouped as A · (X · W) with padded columns, over the same entries. -/
def gramROf (a0 : (⟨2, ![4096, 32]⟩ : Shape).Idx → EReal) (a1 : (⟨2, ![4096, 4096]⟩ : Shape).Idx → EReal)
    (a2 : (⟨2, ![32, 32]⟩ : Shape).Idx → EReal) (a3 : (⟨1, ![32]⟩ : Shape).Idx → EReal) :
    (⟨2, ![4096, 4096]⟩ : Shape).Idx → EReal := fun i =>
  Spec.gramR (fun r n => a1 (ix2 r n)) (fun n k => a0 (ix2 n k)) (fun k j => a2 (ix2 k j)) (fun j => a3 (ix1 j)) (i 0) (i 1)

/-- ON REAL ENTRIES THE TWO ARE EQUAL. -/
theorem gram_bridge (a0 : (⟨2, ![4096, 32]⟩ : Shape).Idx → EReal) (a1 : (⟨2, ![4096, 4096]⟩ : Shape).Idx → EReal)
    (a2 : (⟨2, ![32, 32]⟩ : Shape).Idx → EReal) (a3 : (⟨1, ![32]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    gramKOf a0 a1 a2 a3 = gramROf a0 a1 a2 a3 := by
  choose x hx using h0
  choose A hA using h1
  choose W hW using h2
  choose b hb using h3
  have e0 : a0 = fun i => (x i : EReal) := funext hx
  have e1 : a1 = fun i => (A i : EReal) := funext hA
  have e2 : a2 = fun i => (W i : EReal) := funext hW
  have e3 : a3 = fun i => (b i : EReal) := funext hb
  subst e0 e1 e2 e3
  funext i
  exact Spec.gram_eq (fun r n => A (ix2 r n)) (fun n k => x (ix2 n k)) (fun k j => W (ix2 k j)) (fun j => b (ix1 j)) (i 0) (i 1)

end Cert.Proof.Bridge

end
-- ==== Proof.lean ====
/-
  The proof of `Cert.Claim`: a two-stage graph structure decoder against its reference.

  Both programs compute  out = H · Hᵀ  with  H = max (A · X · W + b, 0),  A the 4096 × 4096 adjacency, X 4096 × 32,
  W 32 × 32, b a row of 32, each as two pallas_calls: the hidden layer H row block by row block, then the Gram matrix
  of H block by block with H handed to the second call through two windows on one array.

  The kernel groups the triple product as (A · X) · W over 32 hidden columns and contracts the whole long axis in one
  matrix product per 512-row strip. The reference pads W and b with zero columns up to 128 on the host, forms
  X · W there, contracts the long axis in two halves of 2048 into a scratch accumulator that starts at zero, and takes
  the Gram matrix over all 128 columns in 512 × 1024 blocks.

  Frames. Each program's run is its host operations followed by its two calls; each call's body is run once on
  symbolic staging buffers and the arrays no call writes (the four arguments among them) end as launched
  (`Hand.frame` in each program's run module).

  Values. At the ideal values every matrix product into a zero accumulator is a plain finite sum, so each call's
  write-backs are blocks of ONE function of the arrays the call reads and tile its result
  (`KVal.run`, `RVal.run`): the kernel's result is `Spec.gramK` of the arguments' entries, the reference's
  `Spec.gramR`.

  The law. On FINITE entries — this is where the precondition is used: the extended reals do not distribute over
  sums at the infinities — a finite double sum may be summed in either order and a real factor moves across a sum,
  so (A · X) · W = A · (X · W); a padded hidden column is max (0 + 0, 0) = 0 and adds 0 · 0 to the Gram sum; and a
  sum over 4096 is the sum of its two halves (`Spec.gram_eq`, through `Bridge.gram_bridge`).

  No operation of the kernel was rewritten by the idealization, so it is the program's own text read at the ideal
  values and `preserves` asks nothing.
-/
import proofs.«135639_g2000505199253694_pallasbulk_90_2_alg».proof.Defs
import proofs.«135639_g2000505199253694_pallasbulk_90_2_alg».proof.Proof.Gen.Kernel
import proofs.«135639_g2000505199253694_pallasbulk_90_2_alg».proof.Proof.Gen.KernelIdeal
import proofs.«135639_g2000505199253694_pallasbulk_90_2_alg».proof.Proof.Gen.ReferenceIdeal
import proofs.«135639_g2000505199253694_pallasbulk_90_2_alg».proof.Proof.Gen.Pre_finite_inputs
import proofs.«135639_g2000505199253694_pallasbulk_90_2_alg».proof.Proof.KbRun
import proofs.«135639_g2000505199253694_pallasbulk_90_2_alg».proof.Proof.KvRun
import proofs.«135639_g2000505199253694_pallasbulk_90_2_alg».proof.Proof.RvRun
import proofs.«135639_g2000505199253694_pallasbulk_90_2_alg».proof.Proof.Finite
import proofs.«135639_g2000505199253694_pallasbulk_90_2_alg».proof.Proof.Bridge

noncomputable section

namespace Cert.Proof

open Idealize.ShloMosaic Idealize.SL.Sem

/-- The word-level kernel runs and leaves its arguments as launched. -/
theorem frame_kernel : @Cert.frame_Kernel Cert.Kernel.Gen.facts Cert.Pre_finite_inputs.Gen.facts :=
  fun m ρ _ => Cert.Kernel.Hand.frame m ρ

/-- So does the kernel read at the ideal values, -/
theorem frame_kernelIdeal : @Cert.frame_KernelIdeal Cert.KernelIdeal.Gen.facts Cert.Pre_finite_inputs.Gen.facts :=
  fun m ρ _ => Cert.KernelIdeal.Hand.frame m ρ

/-- and the reference. -/
theorem frame_referenceIdeal : @Cert.frame_ReferenceIdeal Cert.ReferenceIdeal.Gen.facts Cert.Pre_finite_inputs.Gen.facts :=
  fun m ρ _ => Cert.ReferenceIdeal.Hand.frame m ρ

/-- At the ideal values, from memories that agree on the four arguments, the kernel ends at `Spec.gramK` of their
    entries and the reference at `Spec.gramR` of the same entries; the precondition makes every entry a real, and on
    reals the two Gram matrices are equal. -/
theorem algebraic : @Cert.algebraic_KernelIdeal_ReferenceIdeal Cert.KernelIdeal.Gen.facts Cert.ReferenceIdeal.Gen.facts
    Cert.Pre_finite_inputs.Gen.facts := by
  intro m g m' g' hpre hagree
  refine ⟨_, Cert.KernelIdeal.KVal.run m g, ?_⟩
  refine (θ_run Cert.ReferenceIdeal.defs _ _).mono (fun r h c => ⟨(h c).1.trans ?_, (h c).2⟩)
    (Cert.ReferenceIdeal.RVal.run m' g')
  rw [(hagree c).1, (hagree c).2.1, (hagree c).2.2.1, (hagree c).2.2.2]
  obtain ⟨h0, h1, h2, h3⟩ := Cert.Proof.Finite.reals_of_pre _ _ _ _ (hpre c)
  exact (Cert.Proof.Bridge.gram_bridge _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
